-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x602 : Shape := ⟨2, ![120000, 602]⟩
abbrev S250000 : Shape := ⟨1, ![250000]⟩
abbrev S25600 : Shape := ⟨1, ![25600]⟩
abbrev S602x256 : Shape := ⟨2, ![602, 256]⟩
abbrev S256 : Shape := ⟨1, ![256]⟩
abbrev S256x41 : Shape := ⟨2, ![256, 41]⟩
abbrev S41 : Shape := ⟨1, ![41]⟩
abbrev S_ : Shape := ⟨0, ![]⟩

class Facts : Prop where
  bcast_S_S120000x602 : S_.BroadcastsInDim S120000x602 (![] : Fin 0 → Fin S120000x602.rank)
  reducesTo_S120000x602_S_d0_1 : S120000x602.ReducesTo [0, 1] S_
  h_S_ : 0 < S_.numel
  bcast_S_S602x256 : S_.BroadcastsInDim S602x256 (![] : Fin 0 → Fin S602x256.rank)
  reducesTo_S602x256_S_d0_1 : S602x256.ReducesTo [0, 1] S_
  bcast_S_S256 : S_.BroadcastsInDim S256 (![] : Fin 0 → Fin S256.rank)
  reducesTo_S256_S_d0 : S256.ReducesTo [0] S_
  bcast_S_S256x41 : S_.BroadcastsInDim S256x41 (![] : Fin 0 → Fin S256x41.rank)
  reducesTo_S256x41_S_d0_1 : S256x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg8 : FVec F S256x41 .f32) (main_arg9 : FVec F S256x41 .f32) (main_arg10 : FVec F S41 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x41 .f32 := Host.absf main_arg8
  let main_cst_6 : FVec F S_ .f32 := constant S_ .f32 0x7F800000#32
  let main_v20 : FVec F S256x41 .f32 := broadcastInDim S256x41 ![] bcast_S_S256x41 main_cst_6
  let main_v21 : IVec S256x41 1 := cmpf .olt main_v19 main_v20
  let main_c_7 : IVec S_ 1 := constantI S_ 1 1#1
  let main_v22 : IVec S_ 1 := (fun x v => Host.reduce IntOp.andi x v reducesTo_S256x41_S_d0_1 h_S_) main_v21 main_c_7
  let main_v23 : IVec S_ 1 := andi main_v18 main_v22
  let main_v24 : FVec F S256x41 .f32 := Host.absf main_arg9
  let main_cst_8 : FVec F S_ .f32 := constant S_ .f32 0x7F800000#32
  let main_v25 : FVec F S256x41 .f32 := broadcastInDim S256x41 ![] bcast_S_S256x41 main_cst_8
  let main_v26 : IVec S256x41 1 := cmpf .olt main_v24 main_v25
  let main_c_9 : IVec S_ 1 := constantI S_ 1 1#1
  let main_v27 : IVec S_ 1 := (fun x v => Host.reduce IntOp.andi x v reducesTo_S256x41_S_d0_1 h_S_) main_v26 main_c_9
  let main_v28 : IVec S_ 1 := andi main_v23 main_v27
  let main_v29 : FVec F S41 .f32 := Host.absf main_arg10
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S120000x602 .f32) (main_arg1 : IVec S250000 32) (main_arg2 : IVec S250000 32) (main_arg3 : IVec S25600 32) (main_arg4 : IVec S25600 32) (main_arg5 : FVec F S602x256 .f32) (main_arg6 : FVec F S602x256 .f32) (main_arg7 : FVec F S256 .f32) (main_arg8 : FVec F S256x41 .f32) (main_arg9 : FVec F S256x41 .f32) (main_arg10 : FVec F S41 .f32) : IVec S_ 1 :=
  let main_v0 : FVec F S120000x602 .f32 := Host.absf main_arg0
  let main_cst : FVec F S_ .f32 := constant S_ .f32 0x7F800000#32
  let main_v1 : FVec F S120000x602 .f32 := broadcastInDim S120000x602 ![] bcast_S_S120000x602 main_cst
  let main_v2 : IVec S120000x602 1 := cmpf .olt main_v0 main_v1
  let main_c : IVec S_ 1 := constantI S_ 1 1#1
  let main_v3 : IVec S_ 1 := (fun x v => Host.reduce IntOp.andi x v reducesTo_S120000x602_S_d0_1 h_S_) main_v2 main_c
  let main_v4 : FVec F S602x256 .f32 := Host.absf main_arg5
  let main_cst_0 : FVec F S_ .f32 := constant S_ .f32 0x7F800000#32
  let main_v5 : FVec F S602x256 .f32 := broadcastInDim S602x256 ![] bcast_S_S602x256 main_cst_0
  let main_v6 : IVec S602x256 1 := cmpf .olt main_v4 main_v5
  let main_c_1 : IVec S_ 1 := constantI S_ 1 1#1
  let main_v7 : IVec S_ 1 := (fun x v => Host.reduce IntOp.andi x v reducesTo_S602x256_S_d0_1 h_S_) main_v6 main_c_1
  let main_v8 : IVec S_ 1 := andi main_v3 main_v7
  let main_v9 : FVec F S602x256 .f32 := Host.absf main_arg6
  let main_cst_2 : FVec F S_ .f32 := constant S_ .f32 0x7F800000#32
  let main_v10 : FVec F S602x256 .f32 := broadcastInDim S602x256 ![] bcast_S_S602x256 main_cst_2
  let main_v11 : IVec S602x256 1 := cmpf .olt main_v9 main_v10
  let main_c_3 : IVec S_ 1 := constantI S_ 1 1#1
  let main_v12 : IVec S_ 1 := (fun x v => Host.reduce IntOp.andi x v reducesTo_S602x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S120000x602 : Shape := ⟨2, ![120000, 602]⟩
abbrev S250000 : Shape := ⟨1, ![250000]⟩
abbrev S25600 : Shape := ⟨1, ![25600]⟩
abbrev S602x256 : Shape := ⟨2, ![602, 256]⟩
abbrev S256 : Shape := ⟨1, ![256]⟩
abbrev S256x41 : Shape := ⟨2, ![256, 41]⟩
abbrev S41 : Shape := ⟨1, ![41]⟩
abbrev S_ : Shape := ⟨0, ![]⟩
abbrev S250000x1 : Shape := ⟨2, ![250000, 1]⟩
abbrev S250000x602 : Shape := ⟨2, ![250000, 602]⟩
abbrev S10000x602 : Shape := ⟨2, ![10000, 602]⟩
abbrev S10000 : Shape := ⟨1, ![10000]⟩
abbrev S10000x1 : Shape := ⟨2, ![10000, 1]⟩
abbrev S10000x256 : Shape := ⟨2, ![10000, 256]⟩
abbrev S2000x602 : Shape := ⟨2, ![2000, 602]⟩
abbrev S2000x256 : Shape := ⟨2, ![2000, 256]⟩
abbrev S1x256 : Shape := ⟨2, ![1, 256]⟩
abbrev S25600x1 : Shape := ⟨2, ![25600, 1]⟩
abbrev S25600x256 : Shape := ⟨2, ![25600, 256]⟩
abbrev S1024x256 : Shape := ⟨2, ![1024, 256]⟩
abbrev S1024 : Shape := ⟨1, ![1024]⟩
abbrev S1024x1 : Shape := ⟨2, ![1024, 1]⟩
abbrev S1024x41 : Shape := ⟨2, ![1024, 41]⟩
abbrev S512x256 : Shape := ⟨2, ![512, 256]⟩
abbrev S512x41 : Shape := ⟨2, ![512, 41]⟩
abbrev S1x41 : Shape := ⟨2, ![1, 41]⟩
abbrev S512 : Shape := ⟨1, ![512]⟩
abbrev S512x1 : Shape := ⟨2, ![512, 1]⟩

abbrev nBuf : Space → Nat
  | .hbm => 65
  | .vmem => 18
  | .smem => 0
  | _ => 0

abbrev bufTy : (tb : Table) → Fin (tcTables nBuf tb) → BufTy
  | .hbm, ⟨0, _⟩ => ⟨S120000x602, .f32⟩
  | .hbm, ⟨1, _⟩ => ⟨S250000, .i32⟩
  | .hbm, ⟨2, _⟩ => ⟨S250000, .i32⟩
  | .hbm, ⟨3, _⟩ => ⟨S25600, .i32⟩
  | .hbm, ⟨4, _⟩ => ⟨S25600, .i32⟩
  | .hbm, ⟨5, _⟩ => ⟨S602x256, .f32⟩
  | .hbm, ⟨6, _⟩ => ⟨S602x256, .f32⟩
  | .hbm, ⟨7, _⟩ => ⟨S256, .f32⟩
  | .hbm, ⟨8, _⟩ => ⟨S256x41, .f32⟩
  | .hbm, ⟨9, _⟩ => ⟨S256x41, .f32⟩
  | .hbm, ⟨10, _⟩ => ⟨S41, .f32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x602, .f32⟩
  | .hbm, ⟨20, _⟩ => ⟨S_, .f32⟩
  | .hbm, ⟨21, _⟩ => ⟨S10000x602, .f32⟩
  | .hbm, ⟨22, _⟩ => ⟨S250000x1, .i32⟩
  | .hbm, ⟨23, _⟩ => ⟨S10000x602, .f32⟩
  | .hbm, ⟨24, _⟩ => ⟨S_, .f32⟩
  | .hbm, ⟨25, _⟩ => ⟨S250000, .f32⟩
  | .hbm, ⟨26, _⟩ => ⟨S_, .f32⟩
  | .hbm, ⟨27, _⟩ => ⟨S10000, .f32⟩
  | .hbm, ⟨28, _⟩ => ⟨S250000x1, .i32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x602, .f32⟩
  | .hbm, ⟨35, _⟩ => ⟨S10000x602, .f32⟩
  | .hbm, ⟨36, _⟩ => ⟨S10000x602, .f32⟩
  | .hbm, ⟨37, _⟩ => ⟨S10000x256, .f32⟩
  | .hbm, ⟨38, _⟩ => ⟨S_, .i32⟩
  | .hbm, ⟨39, _⟩ => ⟨S25600, .i32⟩
  | .hbm, ⟨40, _⟩ => ⟨S25600, .i1⟩
  | .hbm, ⟨41, _⟩ => ⟨S_, .i32⟩
  | .hbm, ⟨42, _⟩ => ⟨S25600, .i32⟩
  | .hbm, ⟨43, _⟩ => ⟨S25600, .i32⟩
  | .hbm, ⟨44, _⟩ => ⟨S25600, .i32⟩
  | .hbm, ⟨45, _⟩ => ⟨S25600x1, .i32⟩
  | .hbm, ⟨46, _⟩ => ⟨S25600x256, .f32⟩
  | .hbm, ⟨47, _⟩ => ⟨S_, .f32⟩
  | .hbm, ⟨48, _⟩ => ⟨S1024x256, .f32⟩
  | .hbm, ⟨49, _⟩ => ⟨S25600x1, .i32⟩
  | .hbm, ⟨50, _⟩ => ⟨S1024x256, .f32⟩
  | .hbm, ⟨51, _⟩ => ⟨S_, .f32⟩
  | .hbm, ⟨52, _⟩ => ⟨S25600, .f32⟩
  | .hbm, ⟨53, _⟩ => ⟨S_, .f32⟩
  | .hbm, ⟨54, _⟩ => ⟨S1024, .f32⟩
  | .hbm, ⟨55, _⟩ => ⟨S25600x1, .i32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024x1, .f32⟩
  | .hbm, ⟨61, _⟩ => ⟨S1024x256, .f32⟩
  | .hbm, ⟨62, _⟩ => ⟨S1024x256, .f32⟩
  | .hbm, ⟨63, _⟩ => ⟨S1024x256, .f32⟩
  | .hbm, ⟨64, _⟩ => ⟨S1024x41, .f32⟩
  | .local _ .vmem, ⟨0, _⟩ => ⟨S2000x602, .f32⟩
  | .local _ .vmem, ⟨1, _⟩ => ⟨S2000x602, .f32⟩
  | .local _ .vmem, ⟨2, _⟩ => ⟨S2000x602, .f32⟩
  | .local _ .vmem, ⟨3, _⟩ => ⟨S2000x602, .f32⟩
  | .local _ .vmem, ⟨4, _⟩ => ⟨S602x256, .f32⟩
  | .local _ .vmem, ⟨5, _⟩ => ⟨S602x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S256x41, .f32⟩
  | .local _ .vmem, ⟨14, _⟩ => ⟨S256x41, .f32⟩
  | .local _ .vmem, ⟨15, _⟩ => ⟨S41, .f32⟩
  | .local _ .vmem, ⟨16, _⟩ => ⟨S512x41, .f32⟩
  | .local _ .vmem, ⟨17, _⟩ => ⟨S512x41, .f32⟩
  | _, _ => ⟨S120000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x602 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S602x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S602x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x41 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x41 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S41 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x41 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  bcast_S_S10000x602 : S_.BroadcastsInDim S10000x602 (![] : Fin 0 → Fin S10000x602.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x602_0_1 : S10000x1.BroadcastsInDim S10000x602 (![0, 1] : Fin 2 → Fin S10000x602.rank)
  slices_S120000x602_S10000x602_0_0 : S120000x602.Slices ![0, 0] S10000x602
  inb_S2000x602_S2000x602_0_0 : ∀ a, (![0, 0] : Fin 2 → Nat) a + S2000x602.size a ≤ S2000x602.size a
  h_S2000x602 : 0 < S2000x602.numel
  shapeCasts_S2000x602_S2000x602 : S2000x602.ShapeCasts S2000x602
  bitsLt_bf16_f32 : FTy.bits .bf16 < FTy.bits .f32
  inb_S602x256_S602x256_0_0 : ∀ a, (![0, 0] : Fin 2 → Nat) a + S602x256.size a ≤ S602x256.size a
  h_S602x256 : 0 < S602x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S25600 : S_.BroadcastsInDim S25600 (![] : Fin 0 → Fin S25600.rank)
  bcast_S25600_S25600x1_0 : S25600.BroadcastsInDim S25600x1 (![0] : Fin 1 → Fin S25600x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S10000x256_S1024x256_0_0 : S10000x256.Slices ![0, 0] S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x41_S256x41_0_0 : ∀ a, (![0, 0] : Fin 2 → Nat) a + S256x41.size a ≤ S256x41.size a
  h_S256x41 : 0 < S256x41.numel
  inb_S41_S41_0 : ∀ a, (![0] : Fin 1 → Nat) a + S41.size a ≤ S41.size a
  h_S41 : 0 < S41.numel
  shapeCasts_S41_S1x41 : S41.ShapeCasts S1x41
  broadcasts_S1x41_S512x41 : S1x41.Broadcasts S512x41
  reduces_S512x41_S512 : S512x41.Reduces [1] S512
  shapeCasts_S512_S512x1 : S512.ShapeCasts S512x1
  broadcasts_S512x1_S512x41 : S512x1.Broadcasts S512x41
  inb_S512x41_S512x41_0_0 : ∀ a, (![0, 0] : Fin 2 → Nat) a + S512x41.size a ≤ S512x41.size a
  h_S512x41 : 0 < S512x41.numel
  gather_S120000x602_S250000x1_S250000x602_1_0_n_n_0_1_1602_wf : GatherDims.WF S120000x602 S250000x1 S250000x602 [1] [0] [] [0] [] 1 ![1, 602]
  scatter_S10000x602_S250000x1_S250000x602_1_0_0_1_wf : ScatterDims.WF S10000x602 S250000x1 S250000x602 [1] [0] [0] 1
  scatter_S10000_S250000x1_S250000_n_0_0_1_wf : ScatterDims.WF S10000 S250000x1 S250000 [] [0] [0] 1
  dot_S2000x602_S602x256_S2000x256_1_0_0_1_n_n_wf : DotDims.WF S2000x602 S602x256 S2000x256 [1] [0] [0] [1] [] []
  gather_S10000x256_S25600x1_S25600x256_1_0_n_n_0_1_1256_wf : GatherDims.WF S10000x256 S25600x1 S25600x256 [1] [0] [] [0] [] 1 ![1, 256]
  scatter_S1024x256_S25600x1_S25600x256_1_0_0_1_wf : ScatterDims.WF S1024x256 S25600x1 S25600x256 [1] [0] [0] 1
  scatter_S1024_S25600x1_S25600_n_0_0_1_wf : ScatterDims.WF S1024 S25600x1 S25600 [] [0] [0] 1
  dot_S512x256_S256x41_S512x41_1_0_0_1_n_n_wf : DotDims.WF S512x256 S256x41 S512x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x602.size a ≤ S10000x602.size a
  hwx0_0 : ∀ i : grid0.Coords, EltTy.bits .f32 = 32 ∨ (Rect.block (s := S10000x602) S2000x602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x602.size a ≤ S10000x602.size a
  hwx0_1 : ∀ i : grid0.Coords, EltTy.bits .f32 = 32 ∨ (Rect.block (s := S10000x602) S2000x602.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S602x256.size a ≤ S602x256.size a
  hwx0_2 : ∀ i : grid0.Coords, EltTy.bits .f32 = 32 ∨ (Rect.block (s := S602x256) S602x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S602x256.size a ≤ S602x256.size a
  hwx0_3 : ∀ i : grid0.Coords, EltTy.bits .f32 = 32 ∨ (Rect.block (s := S602x256) S602x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S10000x256.size a
  hwx0_5 : ∀ i : grid0.Coords, EltTy.bits .f32 = 32 ∨ (Rect.block (s := S10000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S1024x256.size a
  hwx1_0 : ∀ i : grid1.Coords, EltTy.bits .f32 = 32 ∨ (Rect.block (s := S1024x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S1024x256.size a
  hwx1_1 : ∀ i : grid1.Coords, EltTy.bits .f32 = 32 ∨ (Rect.block (s := S1024x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x41.size a ≤ S256x41.size a
  hwx1_2 : ∀ i : grid1.Coords, EltTy.bits .f32 = 32 ∨ (Rect.block (s := S256x41) S256x41.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x41.size a ≤ S256x41.size a
  hwx1_3 : ∀ i : grid1.Coords, EltTy.bits .f32 = 32 ∨ (Rect.block (s := S256x41) S256x41.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S41.size a ≤ S41.size a
  hwx1_4 : ∀ i : grid1.Coords, EltTy.bits .f32 = 32 ∨ (Rect.block (s := S41) S41.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x41.size a ≤ S1024x41.size a
  hwx1_5 : ∀ i : grid1.Coords, EltTy.bits .f32 = 32 ∨ (Rect.block (s := S1024x41) S512x41.size (cc1_transform_5 i) (hinb1_5 i)).WholeWords (EltTy.packing .f32)

variable [Facts₀]

def gather_S120000x602_S250000x1_S250000x602_1_0_n_n_0_1_1602 : GatherDims S120000x602 S250000x1 S250000x602 where
  offsetDims := [1]
  collapsedSliceDims := [0]
  operandBatchingDims := []
  startIndicesBatchingDims := []
  startIndexMap := [0]
  indexVectorDim := 1
  sliceSizes := ![1, 602]
  wf := gather_S120000x602_S250000x1_S250000x602_1_0_n_n_0_1_1602_wf
def scatter_S10000x602_S250000x1_S250000x602_1_0_0_1 : ScatterDims S10000x602 S250000x1 S250000x602 where
  updateWindowDims := [1]
  insertedWindowDims := [0]
  scatterDimsToOperandDims := [0]
  indexVectorDim := 1
  wf := scatter_S10000x602_S250000x1_S250000x602_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S2000x602_S602x256_S2000x256_1_0_0_1_n_n : DotDims S2000x602 S602x256 S2000x256 where
  lhsContracting := [1]
  rhsContracting := [0]
  lhsNonContracting := [0]
  rhsNonContracting := [1]
  lhsBatch := []
  rhsBatch := []
  wf := dot_S2000x602_S602x256_S2000x256_1_0_0_1_n_n_wf
def gather_S10000x256_S25600x1_S25600x256_1_0_n_n_0_1_1256 : GatherDims S10000x256 S25600x1 S25600x256 where
  offsetDims := [1]
  collapsedSliceDims := [0]
  operandBatchingDims := []
  startIndicesBatchingDims := []
  startIndexMap := [0]
  indexVectorDim := 1
  sliceSizes := ![1, 256]
  wf := gather_S10000x256_S25600x1_S25600x256_1_0_n_n_0_1_1256_wf
def scatter_S1024x256_S25600x1_S25600x256_1_0_0_1 : ScatterDims S1024x256 S25600x1 S25600x256 where
  updateWindowDims := [1]
  insertedWindowDims := [0]
  scatterDimsToOperandDims := [0]
  indexVectorDim := 1
  wf := scatter_S1024x256_S25600x1_S25600x256_1_0_0_1_wf
def scatter_S1024_S25600x1_S25600_n_0_0_1 : ScatterDims S1024 S25600x1 S25600 where
  updateWindowDims := []
  insertedWindowDims := [0]
  scatterDimsToOperandDims := [0]
  indexVectorDim := 1
  wf := scatter_S1024_S25600x1_S25600_n_0_0_1_wf
def dot_S512x256_S256x41_S512x41_1_0_0_1_n_n : DotDims S512x256 S256x41 S512x41 where
  lhsContracting := [1]
  rhsContracting := [0]
  lhsNonContracting := [0]
  rhsNonContracting := [1]
  lhsBatch := []
  rhsBatch := []
  wf := dot_S512x256_S256x41_S512x41_1_0_0_1_n_n_wf

abbrev win0_0 : Pipeline.Window sig grid0 :=
  Pipeline.Window.ofSpec (Memref.whole main_v18) S2000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x602.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S602x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S602x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x41.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S41.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S512x41.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S120000x602 : Shape := ⟨2, ![120000, 602]⟩
abbrev S250000 : Shape := ⟨1, ![250000]⟩
abbrev S25600 : Shape := ⟨1, ![25600]⟩
abbrev S602x256 : Shape := ⟨2, ![602, 256]⟩
abbrev S256 : Shape := ⟨1, ![256]⟩
abbrev S256x41 : Shape := ⟨2, ![256, 41]⟩
abbrev S41 : Shape := ⟨1, ![41]⟩
abbrev S10000x602 : Shape := ⟨2, ![10000, 602]⟩
abbrev S_ : Shape := ⟨0, ![]⟩
abbrev S250000x1 : Shape := ⟨2, ![250000, 1]⟩
abbrev S250000x602 : Shape := ⟨2, ![250000, 602]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1024x256 : Shape := ⟨2, ![1024, 256]⟩
abbrev S25600x1 : Shape := ⟨2, ![25600, 1]⟩
abbrev S25600x256 : Shape := ⟨2, ![25600, 256]⟩
abbrev S1024 : Shape := ⟨1, ![1024]⟩
abbrev S1024x1 : Shape := ⟨2, ![1024, 1]⟩
abbrev S1024x41 : Shape := ⟨2, ![1024, 41]⟩
abbrev S1x41 : Shape := ⟨2, ![1, 41]⟩

abbrev nBuf : Space → Nat
  | .hbm => 93
  | .vmem => 0
  | .smem => 0
  | _ => 0

abbrev bufTy : (tb : Table) → Fin (tcTables nBuf tb) → BufTy
  | .hbm, ⟨0, _⟩ => ⟨S120000x602, .f32⟩
  | .hbm, ⟨1, _⟩ => ⟨S250000, .i32⟩
  | .hbm, ⟨2, _⟩ => ⟨S250000, .i32⟩
  | .hbm, ⟨3, _⟩ => ⟨S25600, .i32⟩
  | .hbm, ⟨4, _⟩ => ⟨S25600, .i32⟩
  | .hbm, ⟨5, _⟩ => ⟨S602x256, .f32⟩
  | .hbm, ⟨6, _⟩ => ⟨S602x256, .f32⟩
  | .hbm, ⟨7, _⟩ => ⟨S256, .f32⟩
  | .hbm, ⟨8, _⟩ => ⟨S256x41, .f32⟩
  | .hbm, ⟨9, _⟩ => ⟨S256x41, .f32⟩
  | .hbm, ⟨10, _⟩ => ⟨S41, .f32⟩
  | .hbm, ⟨11, _⟩ => ⟨S10000x602, .f32⟩
  | .hbm, ⟨12, _⟩ => ⟨S_, .i32⟩
  | .hbm, ⟨13, _⟩ => ⟨S250000, .i32⟩
  | .hbm, ⟨14, _⟩ => ⟨S250000, .i1⟩
  | .hbm, ⟨15, _⟩ => ⟨S_, .i32⟩
  | .hbm, ⟨16, _⟩ => ⟨S250000, .i32⟩
  | .hbm, ⟨17, _⟩ => ⟨S250000, .i32⟩
  | .hbm, ⟨18, _⟩ => ⟨S250000, .i32⟩
  | .hbm, ⟨19, _⟩ => ⟨S250000x1, .i32⟩
  | .hbm, ⟨20, _⟩ => ⟨S250000x602, .f32⟩
  | .hbm, ⟨21, _⟩ => ⟨S_, .f32⟩
  | .hbm, ⟨22, _⟩ => ⟨S10000x602, .f32⟩
  | .hbm, ⟨23, _⟩ => ⟨S250000x1, .i32⟩
  | .hbm, ⟨24, _⟩ => ⟨S10000x602, .f32⟩
  | .hbm, ⟨25, _⟩ => ⟨S_, .f32⟩
  | .hbm, ⟨26, _⟩ => ⟨S250000, .f32⟩
  | .hbm, ⟨27, _⟩ => ⟨S_, .f32⟩
  | .hbm, ⟨28, _⟩ => ⟨S10000, .f32⟩
  | .hbm, ⟨29, _⟩ => ⟨S250000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x602, .f32⟩
  | .hbm, ⟨36, _⟩ => ⟨S10000x602, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S1024x256, .f32⟩
  | .hbm, ⟨47, _⟩ => ⟨S_, .i32⟩
  | .hbm, ⟨48, _⟩ => ⟨S25600, .i32⟩
  | .hbm, ⟨49, _⟩ => ⟨S25600, .i1⟩
  | .hbm, ⟨50, _⟩ => ⟨S_, .i32⟩
  | .hbm, ⟨51, _⟩ => ⟨S25600, .i32⟩
  | .hbm, ⟨52, _⟩ => ⟨S25600, .i32⟩
  | .hbm, ⟨53, _⟩ => ⟨S25600, .i32⟩
  | .hbm, ⟨54, _⟩ => ⟨S25600x1, .i32⟩
  | .hbm, ⟨55, _⟩ => ⟨S25600x256, .f32⟩
  | .hbm, ⟨56, _⟩ => ⟨S_, .f32⟩
  | .hbm, ⟨57, _⟩ => ⟨S1024x256, .f32⟩
  | .hbm, ⟨58, _⟩ => ⟨S25600x1, .i32⟩
  | .hbm, ⟨59, _⟩ => ⟨S1024x256, .f32⟩
  | .hbm, ⟨60, _⟩ => ⟨S_, .f32⟩
  | .hbm, ⟨61, _⟩ => ⟨S25600, .f32⟩
  | .hbm, ⟨62, _⟩ => ⟨S_, .f32⟩
  | .hbm, ⟨63, _⟩ => ⟨S1024, .f32⟩
  | .hbm, ⟨64, _⟩ => ⟨S25600x1, .i32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024x1, .f32⟩
  | .hbm, ⟨70, _⟩ => ⟨S1024x256, .f32⟩
  | .hbm, ⟨71, _⟩ => ⟨S1024x256, .f32⟩
  | .hbm, ⟨72, _⟩ => ⟨S1024x41, .f32⟩
  | .hbm, ⟨73, _⟩ => ⟨S1x41, .f32⟩
  | .hbm, ⟨74, _⟩ => ⟨S1024x41, .f32⟩
  | .hbm, ⟨75, _⟩ => ⟨S1024x41, .f32⟩
  | .hbm, ⟨76, _⟩ => ⟨S1024x41, .f32⟩
  | .hbm, ⟨77, _⟩ => ⟨S1024x41, .f32⟩
  | .hbm, ⟨78, _⟩ => ⟨S_, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024x1, .f32⟩
  | .hbm, ⟨84, _⟩ => ⟨S1024x41, .f32⟩
  | .hbm, ⟨85, _⟩ => ⟨S1024x41, .f32⟩
  | .hbm, ⟨86, _⟩ => ⟨S1024x41, .f32⟩
  | .hbm, ⟨87, _⟩ => ⟨S_, .f32⟩
  | .hbm, ⟨88, _⟩ => ⟨S1024, .f32⟩
  | .hbm, ⟨89, _⟩ => ⟨S1024x1, .f32⟩
  | .hbm, ⟨90, _⟩ => ⟨S1024x1, .f32⟩
  | .hbm, ⟨91, _⟩ => ⟨S1024x41, .f32⟩
  | .hbm, ⟨92, _⟩ => ⟨S1024x41, .f32⟩
  | _, _ => ⟨S120000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S120000x602_S10000x602_0_0 : S120000x602.Slices ![0, 0] S10000x602
  bcast_S_S250000 : S_.BroadcastsInDim S250000 (![] : Fin 0 → Fin S250000.rank)
  bcast_S250000_S250000x1_0 : S250000.BroadcastsInDim S250000x1 (![0] : Fin 1 → Fin S250000x1.rank)
  bcast_S_S10000x602 : S_.BroadcastsInDim S10000x602 (![] : Fin 0 → Fin S10000x602.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x602_0_1 : S10000x1.BroadcastsInDim S10000x602 (![0, 1] : Fin 2 → Fin S10000x602.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S10000x256_S1024x256_0_0 : S10000x256.Slices ![0, 0] S1024x256
  bcast_S_S25600 : S_.BroadcastsInDim S25600 (![] : Fin 0 → Fin S25600.rank)
  bcast_S25600_S25600x1_0 : S25600.BroadcastsInDim S25600x1 (![0] : Fin 1 → Fin S25600x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S41_S1x41_1 : S41.BroadcastsInDim S1x41 (![1] : Fin 1 → Fin S1x41.rank)
  bcast_S1x41_S1024x41_0_1 : S1x41.BroadcastsInDim S1024x41 (![0, 1] : Fin 2 → Fin S1024x41.rank)
  reducesTo_S1024x41_S1024_d1 : S1024x41.ReducesTo [1] S1024
  h_S_ : 0 < S_.numel
  bcast_S1024x1_S1024x41_0_1 : S1024x1.BroadcastsInDim S1024x41 (![0, 1] : Fin 2 → Fin S1024x41.rank)
  gather_S120000x602_S250000x1_S250000x602_1_0_n_n_0_1_1602_wf : GatherDims.WF S120000x602 S250000x1 S250000x602 [1] [0] [] [0] [] 1 ![1, 602]
  scatter_S10000x602_S250000x1_S250000x602_1_0_0_1_wf : ScatterDims.WF S10000x602 S250000x1 S250000x602 [1] [0] [0] 1
  scatter_S10000_S250000x1_S250000_n_0_0_1_wf : ScatterDims.WF S10000 S250000x1 S250000 [] [0] [0] 1
  dot_S10000x602_S602x256_S10000x256_1_0_0_1_n_n_wf : DotDims.WF S10000x602 S602x256 S10000x256 [1] [0] [0] [1] [] []
  gather_S10000x256_S25600x1_S25600x256_1_0_n_n_0_1_1256_wf : GatherDims.WF S10000x256 S25600x1 S25600x256 [1] [0] [] [0] [] 1 ![1, 256]
  scatter_S1024x256_S25600x1_S25600x256_1_0_0_1_wf : ScatterDims.WF S1024x256 S25600x1 S25600x256 [1] [0] [0] 1
  scatter_S1024_S25600x1_S25600_n_0_0_1_wf : ScatterDims.WF S1024 S25600x1 S25600 [] [0] [0] 1
  dot_S1024x256_S256x41_S1024x41_1_0_0_1_n_n_wf : DotDims.WF S1024x256 S256x41 S1024x41 [1] [0] [0] [1] [] []

variable [Facts₀]

def gather_S120000x602_S250000x1_S250000x602_1_0_n_n_0_1_1602 : GatherDims S120000x602 S250000x1 S250000x602 where
  offsetDims := [1]
  collapsedSliceDims := [0]
  operandBatchingDims := []
  startIndicesBatchingDims := []
  startIndexMap := [0]
  indexVectorDim := 1
  sliceSizes := ![1, 602]
  wf := gather_S120000x602_S250000x1_S250000x602_1_0_n_n_0_1_1602_wf
def scatter_S10000x602_S250000x1_S250000x602_1_0_0_1 : ScatterDims S10000x602 S250000x1 S250000x602 where
  updateWindowDims := [1]
  insertedWindowDims := [0]
  scatterDimsToOperandDims := [0]
  indexVectorDim := 1
  wf := scatter_S10000x602_S250000x1_S250000x602_1_0_0_1_wf
def scatter_S10000_S250000x1_S250000_n_0_0_1 : ScatterDims S10000 S250000x1 S250000 where
  updateWindowDims := []
  insertedWindowDims := [0]
  scatterDimsToOperandDims := [0]
  indexVectorDim := 1
  wf := scatter_S10000_S250000x1_S250000_n_0_0_1_wf
def dot_S10000x602_S602x256_S10000x256_1_0_0_1_n_n : DotDims S10000x602 S602x256 S10000x256 where
  lhsContracting := [1]
  rhsContracting := [0]
  lhsNonContracting := [0]
  rhsNonContracting := [1]
  lhsBatch := []
  rhsBatch := []
  wf := dot_S10000x602_S602x256_S10000x256_1_0_0_1_n_n_wf
def gather_S10000x256_S25600x1_S25600x256_1_0_n_n_0_1_1256 : GatherDims S10000x256 S25600x1 S25600x256 where
  offsetDims := [1]
  collapsedSliceDims := [0]
  operandBatchingDims := []
  startIndicesBatchingDims := []
  startIndexMap := [0]
  indexVectorDim := 1
  sliceSizes := ![1, 256]
  wf := gather_S10000x256_S25600x1_S25600x256_1_0_n_n_0_1_1256_wf
def scatter_S1024x256_S25600x1_S25600x256_1_0_0_1 : ScatterDims S1024x256 S25600x1 S25600x256 where
  updateWindowDims := [1]
  insertedWindowDims := [0]
  scatterDimsToOperandDims := [0]
  indexVectorDim := 1
  wf := scatter_S1024x256_S25600x1_S25600x256_1_0_0_1_wf
def scatter_S1024_S25600x1_S25600_n_0_0_1 : ScatterDims S1024 S25600x1 S25600 where
  updateWindowDims := []
  insertedWindowDims := [0]
  scatterDimsToOperandDims := [0]
  indexVectorDim := 1
  wf := scatter_S1024_S25600x1_S25600_n_0_0_1_wf
def dot_S1024x256_S256x41_S1024x41_1_0_0_1_n_n : DotDims S1024x256 S256x41 S1024x41 where
  lhsContracting := [1]
  rhsContracting := [0]
  lhsNonContracting := [0]
  rhsNonContracting := [1]
  lhsBatch := []
  rhsBatch := []
  wf := dot_S1024x256_S256x41_S1024x41_1_0_0_1_n_n_wf

class Facts : Prop extends Facts₀ where

variable [Facts]
-- ==== Proof.KernelRun.lean ====
/-
  The idealized kernel's run with its final memory NAMED.

  @main is four segments: host operations, the first dense stage's region, host operations, the second
  stage's region.  The contents of the TensorCore's buffers at each boundary are a fold through those segments
  (the generated frame module's `W0 … W4`): a stretch of host operations applies each operation's function, a
  region leaves each of its arrays at what its write-backs leave and every other buffer as it found it.  The
  generated frame claim reads only the ARGUMENT buffers off the last boundary `W4`; the same run read at EVERY
  buffer that outlives a region gives the result buffer too: every weakly fair execution terminates, without a
  fault, in a state whose such buffers hold `W4`.
-/
import proofs.«135882_j69801808494648_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that
    outlives the regions holds the last boundary's contents `W4`: the launch over the four segments, the last
    thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The result buffer and the eleven argument buffers outlive the regions. -/
theorem mem_result : Proc.devRef .tc main_v41 ∈ Pipeline.ucRefs τ sig := mem_uc main_v41 (by decide)

end Cert.KernelIdeal.Run

end
-- ==== Proof.HostReads.lean ====
/-
  The host operations around the two regions, read as functions.

  Before the first region the kernel's @main forms, from the node features and the first hop's edge lists, the
  mean of each target's neighbours (gather the source rows, add them into the targets, divide by the clamped
  in-degree) and the first 10000 rows of the features: operation for operation what the reference's @main does,
  so both values are the reference's own stages of the arguments.  Between the regions it does the same to the
  first hop's OUTPUT array `h`: `mean2 h src dst` and `rows2 h` name those two functions of `h`, spelt with the
  reference's stages for the parts that depend on the edge lists only.  Neither the gather nor the scatter is ever
  opened: both programs apply the same function, and only the arrays going in have to be shown equal.
  The weights, biases and edge lists are written by no operation and no region, so each is read back to the
  launch memory through the fold.
-/
import proofs.«135882_j69801808494648_2_alg».proof.Proof.Gen.KernelIdeal.Frame
import proofs.«135882_j69801808494648_2_alg».proof.Proof.RefRead

set_option maxRecDepth 16384

noncomputable section

namespace Cert.Bridge

open Idealize.ShloMosaic Idealize.ShloMosaic.TcCoe Idealize.SL.Sem Idealize.ShloMosaic.StableHlo

/-! ## The second hop's inputs as functions of the first hop's output -/

section Reference
open Cert.ReferenceIdeal Cert.ReferenceIdeal.Gen Cert.ReferenceIdeal.ReadP

/-- The mean over each of the 1024 targets' neighbours of the rows of `h`: rows gathered at the (wrapped) source
    indices `x3`, added into the targets `x4`, divided by the in-degree clamped below at one. -/
def mean2 (h : FVec Ideal S10000x256 .f32) (x3 x4 : IVec S25600 32) : FVec Ideal S1024x256 .f32 :=
  Host.divf (F := Ideal) (φ := .f32)
    (Host.scatterAdd (F := Ideal) (φ := .f32) scatter_S1024x256_S25600x1_S25600x256_1_0_0_1 (val_main_v35 (F := Ideal)) (val_main_v36 (F := Ideal) x4)
      (Host.gather gather_S10000x256_S25600x1_S25600x256_1_0_n_n_0_1_1256 h (val_main_v33 (F := Ideal) x3)))
    (val_main_v45 (F := Ideal) x4)

/-- The first 1024 rows of `h`. -/
def rows2 (h : FVec Ideal S10000x256 .f32) : FVec Ideal S1024x256 .f32 :=
  extractStridedSlice S1024x256 ![0, 0] h Cert.ReferenceIdeal.Facts₀.slices_S10000x256_S1024x256_0_0

/-- The reference's second neighbour mean is `mean2` of its first hop's output. -/
theorem ref_mean2 (x0 : (⟨S120000x602, .f32⟩ : BufTy).Contents (Elt Ideal)) (x1 x2 : (⟨S250000, .i32⟩ : BufTy).Contents (Elt Ideal))
    (x3 x4 : (⟨S25600, .i32⟩ : BufTy).Contents (Elt Ideal)) (x5 x6 : (⟨S602x256, .f32⟩ : BufTy).Contents (Elt Ideal))
    (x7 : (⟨S256, .f32⟩ : BufTy).Contents (Elt Ideal)) :
    val_main_v46 (F := Ideal) x0 x1 x2 x3 x4 x5 x6 x7 = mean2 (val_main_v26 (F := Ideal) x0 x1 x2 x5 x6 x7) x3 x4 := by
  unfold val_main_v46 val_main_v37 val_main_v34 mean2
  rfl

/-- The reference's own-features input of the second hop is `rows2` of its first hop's output. -/
theorem ref_rows2 (x0 : (⟨S120000x602, .f32⟩ : BufTy).Contents (Elt Ideal)) (x1 x2 : (⟨S250000, .i32⟩ : BufTy).Contents (Elt Ideal))
    (x5 x6 : (⟨S602x256, .f32⟩ : BufTy).Contents (Elt Ideal)) (x7 : (⟨S256, .f32⟩ : BufTy).Contents (Elt Ideal)) :
    val_main_v27 (F := Ideal) x0 x1 x2 x5 x6 x7 = rows2 (val_main_v26 (F := Ideal) x0 x1 x2 x5 x6 x7) := by
  unfold val_main_v27 rows2
  rfl

end Reference

/-! ## The kernel's buffers at the regions' entries -/

section Kernel
open Cert.KernelIdeal Cert.KernelIdeal.Gen

variable (m : (ℓ : Loc nD τ sig) → Buf (Elt Ideal) ℓ) (ρ : Dev nD → PrngReg)

set_option maxHeartbeats 2000000 in
/-- At the first region's entry: the neighbour mean of the node features. -/
theorem entry0_mean (c : Dev nD) : W1 (F := Ideal) m ρ c (Proc.devRef .tc main_v18)
    = Cert.ReferenceIdeal.ReadP.val_main_v19 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results
  rfl

set_option maxHeartbeats 2000000 in
/-- At the first region's entry: the targets' own features. -/
theorem entry0_rows (c : Dev nD) : W1 (F := Ideal) m ρ c (Proc.devRef .tc main_v19)
    = Cert.ReferenceIdeal.ReadP.val_main_v0 (F := Ideal) (m ((c.tc : Thread nD τ).loc main_arg0)) := by
  show StableHlo.after hostOps0 (W0 m ρ c) (Proc.devRef .tc main_v19) = _
  after_results
  rfl

set_option maxHeartbeats 1000000 in
/-- No operation before the first region writes argument 3. -/
theorem entry0_arg3 (c : Dev nD) : W1 (F := Ideal) m ρ c (Proc.devRef .tc main_arg3) = m ((c.tc : Thread nD τ).loc main_arg3) := by
  show StableHlo.after hostOps0 (W0 m ρ c) (Proc.devRef .tc main_arg3) = _
  after_results <;> rfl

set_option maxHeartbeats 1000000 in
/-- No operation before the first region writes argument 4. -/
theorem entry0_arg4 (c : Dev nD) : W1 (F := Ideal) m ρ c (Proc.devRef .tc main_arg4) = m ((c.tc : Thread nD τ).loc main_arg4) := by
  show StableHlo.after hostOps0 (W0 m ρ c) (Proc.devRef .tc main_arg4) = _
  after_results <;> rfl

set_option maxHeartbeats 1000000 in
/-- No operation before the first region writes argument 5. -/
theorem entry0_arg5 (c : Dev nD) : W1 (F := Ideal) m ρ c (Proc.devRef .tc main_arg5) = m ((c.tc : Thread nD τ).loc main_arg5) := by
  show StableHlo.after hostOps0 (W0 m ρ c) (Proc.devRef .tc main_arg5) = _
  after_results <;> rfl

set_option maxHeartbeats 1000000 in
/-- No operation before the first region writes argument 6. -/
theorem entry0_arg6 (c : Dev nD) : W1 (F := Ideal) m ρ c (Proc.devRef .tc main_arg6) = m ((c.tc : Thread nD τ).loc main_arg6) := by
  show StableHlo.after hostOps0 (W0 m ρ c) (Proc.devRef .tc main_arg6) = _
  after_results <;> rfl

set_option maxHeartbeats 1000000 in
/-- No operation before the first region writes argument 7. -/
theorem entry0_arg7 (c : Dev nD) : W1 (F := Ideal) m ρ c (Proc.devRef .tc main_arg7) = m ((c.tc : Thread nD τ).loc main_arg7) := by
  show StableHlo.after hostOps0 (W0 m ρ c) (Proc.devRef .tc main_arg7) = _
  after_results <;> rfl

set_option maxHeartbeats 1000000 in
/-- No operation before the first region writes argument 8. -/
theorem entry0_arg8 (c : Dev nD) : W1 (F := Ideal) m ρ c (Proc.devRef .tc main_arg8) = m ((c.tc : Thread nD τ).loc main_arg8) := by
  show StableHlo.after hostOps0 (W0 m ρ c) (Proc.devRef .tc main_arg8) = _
  after_results <;> rfl

set_option maxHeartbeats 1000000 in
/-- No operation before the first region writes argument 9. -/
theorem entry0_arg9 (c : Dev nD) : W1 (F := Ideal) m ρ c (Proc.devRef .tc main_arg9) = m ((c.tc : Thread nD τ).loc main_arg9) := by
  show StableHlo.after hostOps0 (W0 m ρ c) (Proc.devRef .tc main_arg9) = _
  after_results <;> rfl

set_option maxHeartbeats 1000000 in
/-- No operation before the first region writes argument 10. -/
theorem entry0_arg10 (c : Dev nD) : W1 (F := Ideal) m ρ c (Proc.devRef .tc main_arg10) = m ((c.tc : Thread nD τ).loc main_arg10) := by
  show StableHlo.after hostOps0 (W0 m ρ c) (Proc.devRef .tc main_arg10) = _
  after_results <;> rfl

/-- The first region writes only its output array: argument 3 leaves it as it entered. -/
theorem exit0_arg3 (c : Dev nD) : W2 (F := Ideal) m ρ c (Proc.devRef .tc main_arg3) = m ((c.tc : Thread nD τ).loc main_arg3) :=
  (W2_of_ne m ρ c main_arg3 (by decide)).trans (entry0_arg3 m ρ c)

/-- The first region writes only its output array: argument 4 leaves it as it entered. -/
theorem exit0_arg4 (c : Dev nD) : W2 (F := Ideal) m ρ c (Proc.devRef .tc main_arg4) = m ((c.tc : Thread nD τ).loc main_arg4) :=
  (W2_of_ne m ρ c main_arg4 (by decide)).trans (entry0_arg4 m ρ c)

/-- The first region writes only its output array: argument 8 leaves it as it entered. -/
theorem exit0_arg8 (c : Dev nD) : W2 (F := Ideal) m ρ c (Proc.devRef .tc main_arg8) = m ((c.tc : Thread nD τ).loc main_arg8) :=
  (W2_of_ne m ρ c main_arg8 (by decide)).trans (entry0_arg8 m ρ c)

/-- The first region writes only its output array: argument 9 leaves it as it entered. -/
theorem exit0_arg9 (c : Dev nD) : W2 (F := Ideal) m ρ c (Proc.devRef .tc main_arg9) = m ((c.tc : Thread nD τ).loc main_arg9) :=
  (W2_of_ne m ρ c main_arg9 (by decide)).trans (entry0_arg9 m ρ c)

/-- The first region writes only its output array: argument 10 leaves it as it entered. -/
theorem exit0_arg10 (c : Dev nD) : W2 (F := Ideal) m ρ c (Proc.devRef .tc main_arg10) = m ((c.tc : Thread nD τ).loc main_arg10) :=
  (W2_of_ne m ρ c main_arg10 (by decide)).trans (entry0_arg10 m ρ c)

set_option maxHeartbeats 2000000 in
/-- At the second region's entry: the neighbour mean of the first hop's output. -/
theorem entry1_mean (c : Dev nD) : W3 (F := Ideal) m ρ c (Proc.devRef .tc main_v39)
    = mean2 (W2 (F := Ideal) m ρ c (Proc.devRef .tc main_v20)) (m ((c.tc : Thread nD τ).loc main_arg3)) (m ((c.tc : Thread nD τ).loc main_arg4)) := by
  show StableHlo.after hostOps1 (W2 m ρ c) (Proc.devRef .tc main_v39) = _
  after_results
  rw [exit0_arg3 m ρ c, exit0_arg4 m ρ c]
  rfl

set_option maxHeartbeats 2000000 in
/-- At the second region's entry: the first 1024 rows of the first hop's output. -/
theorem entry1_rows (c : Dev nD) : W3 (F := Ideal) m ρ c (Proc.devRef .tc main_v40)
    = rows2 (W2 (F := Ideal) m ρ c (Proc.devRef .tc main_v20)) := by
  show StableHlo.after hostOps1 (W2 m ρ c) (Proc.devRef .tc main_v40) = _
  after_results
  rfl

set_option maxHeartbeats 1000000 in
/-- No operation between the regions writes argument 8. -/
theorem entry1_arg8 (c : Dev nD) : W3 (F := Ideal) m ρ c (Proc.devRef .tc main_arg8) = m ((c.tc : Thread nD τ).loc main_arg8) := by
  show StableHlo.after hostOps1 (W2 m ρ c) (Proc.devRef .tc main_arg8) = _
  after_results
  exact exit0_arg8 m ρ c

set_option maxHeartbeats 1000000 in
/-- No operation between the regions writes argument 9. -/
theorem entry1_arg9 (c : Dev nD) : W3 (F := Ideal) m ρ c (Proc.devRef .tc main_arg9) = m ((c.tc : Thread nD τ).loc main_arg9) := by
  show StableHlo.after hostOps1 (W2 m ρ c) (Proc.devRef .tc main_arg9) = _
  after_results
  exact exit0_arg9 m ρ c

set_option maxHeartbeats 1000000 in
/-- No operation between the regions writes argument 10. -/
theorem entry1_arg10 (c : Dev nD) : W3 (F := Ideal) m ρ c (Proc.devRef .tc main_arg10) = m ((c.tc : Thread nD τ).loc main_arg10) := by
  show StableHlo.after hostOps1 (W2 m ρ c) (Proc.devRef .tc main_arg10) = _
  after_results
  exact exit0_arg10 m ρ c

end Kernel

end Cert.Bridge

end
-- ==== Proof.Spec.lean ====
/-
  The mathematics both programs compute, as functions of whole arrays on the extended reals.

  One dense stage of a mean-aggregating graph convolution takes the aggregated neighbour features `a`, the
  target nodes' own features `x` (both M×K), two K×N weight matrices and a bias of length N, and gives at row
  `r`, column `q`

      lin a x wl wr b r q  =  (Σ_k a[r,k]·wl[k,q]) + (Σ_k x[r,k]·wr[k,q]) + b[q].

  The first hop clamps this below at zero; the second hop takes, along each row, the logarithm of the
  softmax: with m the row's maximum (folded from −∞),  (o[q] − m) − log Σ_k exp (o[k] − m).

  Everything is generic in the extents, so the same definitions speak of a block of rows and of the whole
  array; `lin_rows` is the one fact that relates the two (a row of the result depends only on that row of
  `a` and of `x`).  No law here needs finite entries: the only algebra used later is that addition on the
  extended reals is commutative and associative, and that a fold of `max` is at least its starting value.
-/
import Idealize.ShloMosaic.Lib.ValueIdx
import Idealize.ShloMosaic.PureOps.Ideal.Laws
import Mathlib.Data.Finset.Fold

noncomputable section

namespace Cert.Sage

open Idealize.ShloMosaic Idealize.ShloMosaic.ValueIdx

/-- The f32 word of +0 and of −∞, read on the extended reals; never evaluated: both programs carry the same words. -/
abbrev zeroW : EReal := Ideal.ofBits .f32 0x00000000#32
abbrev negInfW : EReal := Ideal.ofBits .f32 0xFF800000#32

/-- One dense stage at row `r`, column `q`: neighbours' part, own part, bias. -/
def lin {M K N : Nat} (a x : (⟨2, ![M, K]⟩ : Shape).Idx → EReal) (wl wr : (⟨2, ![K, N]⟩ : Shape).Idx → EReal)
    (b : (⟨1, ![N]⟩ : Shape).Idx → EReal) (r : Fin M) (q : Fin N) : EReal :=
  (∑ k : Fin K, a (ix2 r k) * wl (ix2 k q)) + (∑ k : Fin K, x (ix2 r k) * wr (ix2 k q)) + b (ix1 q)

/-- The same stage with the bias added before the own part: addition is commutative and associative. -/
theorem lin_bias_first {M K N : Nat} (a x : (⟨2, ![M, K]⟩ : Shape).Idx → EReal) (wl wr : (⟨2, ![K, N]⟩ : Shape).Idx → EReal)
    (b : (⟨1, ![N]⟩ : Shape).Idx → EReal) (r : Fin M) (q : Fin N) :
    (∑ k : Fin K, a (ix2 r k) * wl (ix2 k q)) + b (ix1 q) + (∑ k : Fin K, x (ix2 r k) * wr (ix2 k q)) = lin a x wl wr b r q :=
  add_right_comm _ _ _

/-- A row of the stage depends only on that row of `a` and of `x`: if row `r'` of `a'`, `x'` is row `r` of `a`, `x`,
    the two stages agree there. -/
theorem lin_rows {M M' K N : Nat} (a x : (⟨2, ![M, K]⟩ : Shape).Idx → EReal) (a' x' : (⟨2, ![M', K]⟩ : Shape).Idx → EReal)
    (wl wr : (⟨2, ![K, N]⟩ : Shape).Idx → EReal) (b : (⟨1, ![N]⟩ : Shape).Idx → EReal) (r : Fin M) (r' : Fin M')
    (ha : ∀ k : Fin K, a' (ix2 r' k) = a (ix2 r k)) (hx : ∀ k : Fin K, x' (ix2 r' k) = x (ix2 r k)) (q : Fin N) :
    lin a' x' wl wr b r' q = lin a x wl wr b r q := by
  unfold lin
  simp only [ha, hx]

/-- The first hop: the stage clamped below at zero. -/
def hop1 {M K N : Nat} (a x : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => max (lin a x wl wr b (i 0) (i 1)) zeroW

/-- A row's maximum, folded from −∞. -/
def rowMax {N : Nat} (o : Fin N → EReal) : EReal := (Finset.univ : Finset (Fin N)).fold max negInfW o

/-- Folding once more against −∞ changes nothing: the fold is already at least its starting value. -/
theorem max_negInf_rowMax {N : Nat} (o : Fin N → EReal) : max negInfW (rowMax o) = rowMax o :=
  max_eq_right ((Finset.le_fold_max negInfW).mpr (Or.inl le_rfl))

/-- The logarithm of the softmax along a row, shifted by the row's maximum. -/
def logSoftmax {N : Nat} (o : Fin N → EReal) (q : Fin N) : EReal :=
  (o q - rowMax o) - Ideal.log (∑ k : Fin N, Ideal.exp (o k - rowMax o))

/-- The second hop: the stage, then the logarithm of the softmax along each row. -/
def hop2 {M K N : Nat} (a x : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun i => logSoftmax (fun q => lin a x wl wr b (i 0) q) (i 1)

/-- Both hops, row by row: a row of either result depends only on that row of `a` and of `x`. -/
theorem hop1_rows {M M' K N : Nat} (a x : (⟨2, ![M, K]⟩ : Shape).Idx → EReal) (a' x' : (⟨2, ![M', K]⟩ : Shape).Idx → EReal)
    (wl wr : (⟨2, ![K, N]⟩ : Shape).Idx → EReal) (b : (⟨1, ![N]⟩ : Shape).Idx → EReal) (r : Fin M) (r' : Fin M')
    (ha : ∀ k : Fin K, a' (ix2 r' k) = a (ix2 r k)) (hx : ∀ k : Fin K, x' (ix2 r' k) = x (ix2 r k)) (q : Fin N) :
    hop1 a' x' wl wr b (ix2 r' q) = hop1 a x wl wr b (ix2 r q) := by
  show max (lin a' x' wl wr b r' q) zeroW = max (lin a x wl wr b r q) zeroW
  rw [lin_rows a x a' x' wl wr b r r' ha hx q]

theorem hop2_rows {M M' K N : Nat} (a x : (⟨2, ![M, K]⟩ : Shape).Idx → EReal) (a' x' : (⟨2, ![M', K]⟩ : Shape).Idx → EReal)
    (wl wr : (⟨2, ![K, N]⟩ : Shape).Idx → EReal) (b : (⟨1, ![N]⟩ : Shape).Idx → EReal) (r : Fin M) (r' : Fin M')
    (ha : ∀ k : Fin K, a' (ix2 r' k) = a (ix2 r k)) (hx : ∀ k : Fin K, x' (ix2 r' k) = x (ix2 r k)) (q : Fin N) :
    hop2 a' x' wl wr b (ix2 r' q) = hop2 a x wl wr b (ix2 r q) := by
  show logSoftmax (fun q => lin a' x' wl wr b r' q) q = logSoftmax (fun q => lin a x wl wr b r q) q
  rw [show (fun q => lin a' x' wl wr b r' q) = fun q => lin a x wl wr b r q from
    funext fun q => lin_rows a x a' x' wl wr b r r' ha hx q]

end Cert.Sage

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.HopOneArray.lean ====
/-
  The first hop, from blocks to the whole array.

  The first region computes, block of 2000 rows by block of 2000 rows, the clamped dense stage
  max (a·Wl + x·Wr + b, 0) of the aggregated neighbour features a and the nodes' own features x.  Two facts are
  proved here.  First, the arithmetic done on one block is the first hop of that block: each of the two products
  is the row-by-column sum of its operands (the reshape to the same shape and the rounding are the identity on the
  extended reals), the bias laid out as a row and repeated down the rows contributes the bias at that column, and
  the clamp is the maximum with the zero word.  Second, because a row of the hop depends only on that row of a and
  of x, the block written at grid point t is rows 2000·t … 2000·t + 1999 of the hop of the whole arrays; the five
  blocks cover all 10000 rows (row r lies in block r / 2000), so the output array ends holding the hop of the whole
  arrays.  Everything is stated at the contents V the region finds in its arrays, whatever they are.
-/
import proofs.«135882_j69801808494648_2_alg».proof.Proof.Gen.KernelIdeal.Frame
import proofs.«135882_j69801808494648_2_alg».proof.Proof.Spec
import proofs.«135882_j69801808494648_2_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HopOne

open Cert.KernelIdeal Cert.KernelIdeal.Gen Idealize.ShloMosaic Idealize.ShloMosaic.TcCoe Idealize.SL.Sem
open Idealize.ShloMosaic.ValueIdx
open Idealize.ShloMosaic.Pipeline (Dat)

/-- The bias, laid out as one row and repeated down the rows, read at an index: the bias at that column. -/
theorem bias_at (b : Vec Ideal S256 .f32) (j : S2000x256.Idx) :
    broadcastTo S2000x256 (shapeCast S1x256 b shapeCasts_S256_S1x256) broadcasts_S1x256_S2000x256 j = b (ix1 (j 1)) := by
  refine (broadcastTo_apply _ broadcasts_S1x256_S2000x256 j (ix2 (0 : Fin 1) (j 1)) fun a => ?_).trans ?_
  · match a with
    | ⟨0, _⟩ => rfl
    | ⟨1, _⟩ => rfl
  · refine (shapeCast_addUnit_apply ![256] b shapeCasts_S256_S1x256 _).trans (congrArg b ?_)
    funext d
    match d with
    | ⟨0, _⟩ => rfl

/-- One product of the body at an index: the operands pass through the identity reshape and the rounding that is
    the identity on the extended reals, so the product is the row-by-column sum of the loaded blocks themselves. -/
theorem prod_at (a : Vec Ideal S2000x602 .f32) (w : Vec Ideal S602x256 .f32) (j : S2000x256.Idx) :
    matmul dot_S2000x602_S602x256_S2000x256_1_0_0_1_n_n none
        (truncf .bf16 (shapeCast S2000x602 a shapeCasts_S2000x602_S2000x602) bitsLt_bf16_f32)
        (truncf .bf16 w bitsLt_bf16_f32) (constant (F := Ideal) S2000x256 .f32 0x00000000#32) j
      = ∑ k : Fin 602, a (ix2 (j 0) k) * w (ix2 k (j 1)) := by
  refine (DotRows.matmul_zero_apply dot_S2000x602_S602x256_S2000x256_1_0_0_1_n_n rfl rfl rfl rfl rfl rfl none _ _ j).trans ?_
  refine Finset.sum_congr rfl fun k _ => ?_
  exact congrArg₂ (· * ·) (congrFun (shapeCast_self a shapeCasts_S2000x602_S2000x602) (ix2 (j 0) k)) rfl

/-- The body's arithmetic is the first hop of the loaded blocks: both products, their sum, the bias, the clamp at zero. -/
theorem pay_eq (x0 x1 : Vec Ideal S2000x602 .f32) (x2 x3 : Vec Ideal S602x256 .f32) (x4 : Vec Ideal S256 .f32) :
    Gen.k0_pay1 (F := Ideal) x0 x1 x2 x3 x4 = Cert.Sage.hop1 x0 x1 x2 x3 x4 := by
  funext j
  unfold Gen.k0_pay1
  refine (maximumf_apply _ _ j).trans ?_
  refine congrArg₂ max ?_ rfl
  refine (addf_apply _ _ j).trans ?_
  refine congrArg₂ (· + ·) ?_ (bias_at x4 j)
  refine (addf_apply _ _ j).trans ?_
  exact congrArg₂ (· + ·) (prod_at x0 x2 j) (prod_at x1 x3 j)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Where each window's block sits at grid point t: the two row-blocked inputs and the output at row block t
    (one block spans all columns), the two weight matrices and the bias whole. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- The first hop on a block of 2000 rows, at row (y 0), is the first hop on the whole arrays at row (i 0), when
    that row of the two blocked inputs is that row of the whole inputs and the weights and bias are the whole ones. -/
theorem rows_of_block (A X : S10000x602.Idx → EReal) (Wl Wr : S602x256.Idx → EReal) (B : S256.Idx → EReal)
    (a x : Vec Ideal S2000x602 .f32) (wl wr : Vec Ideal S602x256 .f32) (b : Vec Ideal S256 .f32)
    (hwl : wl = Wl) (hwr : wr = Wr) (hb : b = B)
    (y : S2000x256.Idx) (i : S10000x256.Idx) (hq : (i 1).val = (y 1).val)
    (ha : ∀ k : Fin 602, a (ix2 (y 0) k) = A (ix2 (i 0) k))
    (hx : ∀ k : Fin 602, x (ix2 (y 0) k) = X (ix2 (i 0) k)) :
    Cert.Sage.hop1 a x wl wr b y = Cert.Sage.hop1 (M := 10000) (K := 602) (N := 256) A X Wl Wr B i := by
  subst hwl hwr hb
  have e : (i 1 : Fin 256) = y 1 := Fin.ext hq
  rw [eq_ix2 y, eq_ix2 i, e]
  exact Cert.Sage.hop1_rows A X a x wl wr b (i 0) (y 0) ha hx (y 1)

/-- The aggregated-neighbour window's block at point t is rows 2000·t … 2000·t + 1999 of its array. -/
theorem agg_block_apply (c : Dev nD) (t : Fin cfg0.N) (z : S2000x602.Idx) (i : S10000x602.Idx)
    (h0 : (i 0).val = t.val * 2000 + (z 0).val) (h1 : (i 1).val = (z 1).val) :
    (Gen.iblk0 (F := Ideal) V c 0 t : Vec Ideal S2000x602 .f32) z = (V c main_v18 : S10000x602.Idx → EReal) i := by
  obtain ⟨e0, e1, -⟩ := block_index t
  unfold Gen.iblk0
  rw [View.read_apply]
  show V c main_v18 _ = V c main_v18 _
  congr 1
  funext a
  apply Fin.ext
  match a with
  | ⟨0, _⟩ => show win0_0.index t (0 : Fin 2) * 2000 + 1 * (z 0).val = (i 0).val; rw [e0, h0]; omega
  | ⟨1, _⟩ => show win0_0.index t (1 : Fin 2) * 602 + 1 * (z 1).val = (i 1).val; rw [e1, h1]; omega

/-- The own-features window's block at point t is the same rows of its array. -/
theorem own_block_apply (c : Dev nD) (t : Fin cfg0.N) (z : S2000x602.Idx) (i : S10000x602.Idx)
    (h0 : (i 0).val = t.val * 2000 + (z 0).val) (h1 : (i 1).val = (z 1).val) :
    (Gen.iblk0 (F := Ideal) V c 1 t : Vec Ideal S2000x602 .f32) z = (V c main_v19 : S10000x602.Idx → EReal) i := by
  obtain ⟨-, -, e0, e1, -⟩ := block_index t
  unfold Gen.iblk0
  rw [View.read_apply]
  show V c main_v19 _ = V c main_v19 _
  congr 1
  funext a
  apply Fin.ext
  match a with
  | ⟨0, _⟩ => show win0_1.index t (0 : Fin 2) * 2000 + 1 * (z 0).val = (i 0).val; rw [e0, h0]; omega
  | ⟨1, _⟩ => show win0_1.index t (1 : Fin 2) * 602 + 1 * (z 1).val = (i 1).val; rw [e1, h1]; omega

/-- The weight and bias windows hold their whole arrays at every point. -/
theorem wl_block (c : Dev nD) (t : Fin cfg0.N) :
    (Gen.iblk0 (F := Ideal) V c 2 t : Vec Ideal S602x256 .f32) = (V c main_arg5 : S602x256.Idx → EReal) := by
  obtain ⟨-, -, -, -, -, -, e0, e1, -⟩ := block_index t
  funext z
  unfold Gen.iblk0
  rw [View.read_apply]
  show V c main_arg5 _ = V c main_arg5 _
  congr 1
  funext a
  apply Fin.ext
  match a with
  | ⟨0, _⟩ => show win0_2.index t (0 : Fin 2) * 602 + 1 * (z 0).val = (z 0).val; rw [e0]; omega
  | ⟨1, _⟩ => show win0_2.index t (1 : Fin 2) * 256 + 1 * (z 1).val = (z 1).val; rw [e1]; omega

theorem wr_block (c : Dev nD) (t : Fin cfg0.N) :
    (Gen.iblk0 (F := Ideal) V c 3 t : Vec Ideal S602x256 .f32) = (V c main_arg6 : S602x256.Idx → EReal) := by
  obtain ⟨-, -, -, -, -, -, -, -, e0, e1, -⟩ := block_index t
  funext z
  unfold Gen.iblk0
  rw [View.read_apply]
  show V c main_arg6 _ = V c main_arg6 _
  congr 1
  funext a
  apply Fin.ext
  match a with
  | ⟨0, _⟩ => show win0_3.index t (0 : Fin 2) * 602 + 1 * (z 0).val = (z 0).val; rw [e0]; omega
  | ⟨1, _⟩ => show win0_3.index t (1 : Fin 2) * 256 + 1 * (z 1).val = (z 1).val; rw [e1]; omega

theorem bias_block (c : Dev nD) (t : Fin cfg0.N) :
    (Gen.iblk0 (F := Ideal) V c 4 t : Vec Ideal S256 .f32) = (V c main_arg7 : S256.Idx → EReal) := by
  obtain ⟨-, -, -, -, -, -, -, -, -, -, e0⟩ := block_index t
  funext z
  unfold Gen.iblk0
  rw [View.read_apply]
  show V c main_arg7 _ = V c main_arg7 _
  congr 1
  funext a
  apply Fin.ext
  match a with
  | ⟨0, _⟩ => show win0_4.index t (0 : Fin 1) * 256 + 1 * (z 0).val = (z 0).val; rw [e0]; omega

/-- What grid point t writes back is rows 2000·t … 2000·t + 1999 of the first hop of the whole arrays. -/
theorem flushed_eq (c : Dev nD) (t : Fin cfg0.N) :
    (Gen.dat0 (F := Ideal) V c).flushed 5 t = ((cfg0.win 5).blk t).view.read (Elt Ideal)
      (Cert.Sage.hop1 (M := 10000) (K := 602) (N := 256) (V c main_v18) (V c main_v19) (V c main_arg5) (V c main_arg6) (V c main_arg7)) := by
  show (cfg0.win 5).cut (grid0.coords t) ((Gen.dat0 (F := Ideal) V c).after 5 t) = _
  rw [Gen.after0_5]
  unfold Gen.out0_5
  rw [View.canon_unit_zero hz]
  simp only [View.ld_unit_zero (S := S2000x602) hz, View.ld_unit_zero (S := S602x256) hz, View.ld_unit_zero (S := S256) hz1]
  rw [pay_eq]
  obtain ⟨-, -, -, -, e0, e1, -⟩ := block_index t
  funext y
  show Cert.Sage.hop1 (Gen.iblk0 (F := Ideal) V c 0 t) (Gen.iblk0 (F := Ideal) V c 1 t) (Gen.iblk0 (F := Ideal) V c 2 t)
      (Gen.iblk0 (F := Ideal) V c 3 t) (Gen.iblk0 (F := Ideal) V c 4 t) y
    = Cert.Sage.hop1 (M := 10000) (K := 602) (N := 256) (V c main_v18) (V c main_v19) (V c main_arg5) (V c main_arg6) (V c main_arg7)
      (((cfg0.win 5).blk t).view.emb y)
  have r0 : ((((cfg0.win 5).blk t).view.emb y) 0).val = t.val * 2000 + (y 0).val := by
    show win0_5.index t (0 : Fin 2) * 2000 + 1 * (y 0).val = _
    rw [e0]; omega
  have r1 : ((((cfg0.win 5).blk t).view.emb y) 1).val = (y 1).val := by
    show win0_5.index t (1 : Fin 2) * 256 + 1 * (y 1).val = _
    rw [e1]; omega
  exact rows_of_block (V c main_v18) (V c main_v19) (V c main_arg5) (V c main_arg6) (V c main_arg7)
    (Gen.iblk0 (F := Ideal) V c 0 t) (Gen.iblk0 (F := Ideal) V c 1 t) (Gen.iblk0 (F := Ideal) V c 2 t)
    (Gen.iblk0 (F := Ideal) V c 3 t) (Gen.iblk0 (F := Ideal) V c 4 t)
    (wl_block V c t) (wr_block V c t) (bias_block V c t) y (((cfg0.win 5).blk t).view.emb y) r1
    (fun k => agg_block_apply V c t (ix2 (y 0) k) (ix2 ((((cfg0.win 5).blk t).view.emb y) 0) k) r0 rfl)
    (fun k => own_block_apply V c t (ix2 (y 0) k) (ix2 ((((cfg0.win 5).blk t).view.emb y) 0) k) r0 rfl)

/-- An index of the output array is in point t's block iff each coordinate is in the block's range on its axis. -/
theorem mem_blk (t : Fin cfg0.N) (i : S10000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v20).slice (win0_5.rect t)).set ↔ _
  rw [View.set_slice_whole, Rect.mem_set_unit]
  exact Iff.rfl

/-- Every row of the output lies in some point's block: row r in the block of point r / 2000. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 5 := Gen.N_0
  let t : Fin cfg0.N := ⟨(i 0).val / 2000, by rw [hN]; omega⟩
  have ht : t.val = (i 0).val / 2000 := rfl
  obtain ⟨-, -, -, -, e0, e1, -⟩ := block_index t
  refine ⟨t, Gen.flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- The first region's output array after the run is the first hop of the arrays the region found. -/
theorem final (c : Dev nD) :
    (Gen.dat0 (F := Ideal) V c).arrAt 5 cfg0.N
      = Cert.Sage.hop1 (M := 10000) (K := 602) (N := 256) (V c main_v18) (V c main_v19) (V c main_arg5) (V c main_arg6) (V c main_arg7) :=
  (Gen.dat0 (F := Ideal) V c).arrAt_eq_of_cover 5
    (Cert.Sage.hop1 (M := 10000) (K := 602) (N := 256) (V c main_v18) (V c main_v19) (V c main_arg5) (V c main_arg6) (V c main_arg7))
    (fun t _ => flushed_eq V c t) cover

end Cert.KernelIdeal.HopOne

end
-- ==== Proof.HopTwoArray.lean ====
/-
  The second hop, from blocks to the whole array.

  The second region computes, block of 512 rows by block of 512 rows, the dense stage a·Wl + x·Wr + b of the
  second neighbour mean a and the first hop's rows x, and then along each row the logarithm of the softmax: with m
  the row's maximum (folded from −∞), (o[q] − m) − log Σ_k exp (o[k] − m).  Two facts are proved here.  First, the
  arithmetic done on one block is the second hop of that block: the products and the bias read as in the first
  hop; a reduction along the columns visits, at row r, the indices (r, k); the row maximum is the fold of max from
  −∞ along the row and the row sum the sum along it; a vector of row values kept as a column and repeated across
  the columns reads, at (r, q), the value of row r.  Second, because a row of the hop depends only on that row of a
  and of x, the block written at grid point t is rows 512·t … 512·t + 511 of the hop of the whole arrays; the two
  blocks cover all 1024 rows (row r lies in block r / 512), so the output array ends holding the hop of the whole
  arrays.  Everything is stated at the contents V the region finds in its arrays, whatever they are.
-/
import proofs.«135882_j69801808494648_2_alg».proof.Proof.Gen.KernelIdeal.Frame
import proofs.«135882_j69801808494648_2_alg».proof.Proof.Spec
import proofs.«135882_j69801808494648_2_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HopTwo

open Cert.KernelIdeal Cert.KernelIdeal.Gen Idealize.ShloMosaic Idealize.ShloMosaic.TcCoe Idealize.SL.Sem
open Idealize.ShloMosaic.ValueIdx
open Idealize.ShloMosaic.Pipeline (Dat)

/-- The bias, laid out as one row and repeated down the rows, read at an index: the bias at that column. -/
theorem bias_at (b : Vec Ideal S41 .f32) (j : S512x41.Idx) :
    broadcastTo S512x41 (shapeCast S1x41 b shapeCasts_S41_S1x41) broadcasts_S1x41_S512x41 j = b (ix1 (j 1)) := by
  refine (broadcastTo_apply _ broadcasts_S1x41_S512x41 j (ix2 (0 : Fin 1) (j 1)) fun a => ?_).trans ?_
  · match a with
    | ⟨0, _⟩ => rfl
    | ⟨1, _⟩ => rfl
  · refine (shapeCast_addUnit_apply ![41] b shapeCasts_S41_S1x41 _).trans (congrArg b ?_)
    funext d
    match d with
    | ⟨0, _⟩ => rfl

/-- One product of the body at an index: the operands pass through the identity reshape and the rounding that is
    the identity on the extended reals, so the product is the row-by-column sum of the loaded blocks themselves. -/
theorem prod_at (a : Vec Ideal S512x256 .f32) (w : Vec Ideal S256x41 .f32) (j : S512x41.Idx) :
    matmul dot_S512x256_S256x41_S512x41_1_0_0_1_n_n none
        (truncf .bf16 (shapeCast S512x256 a shapeCasts_S512x256_S512x256) bitsLt_bf16_f32)
        (truncf .bf16 w bitsLt_bf16_f32) (constant (F := Ideal) S512x41 .f32 0x00000000#32) j
      = ∑ k : Fin 256, a (ix2 (j 0) k) * w (ix2 k (j 1)) := by
  refine (DotRows.matmul_zero_apply dot_S512x256_S256x41_S512x41_1_0_0_1_n_n rfl rfl rfl rfl rfl rfl none _ _ j).trans ?_
  refine Finset.sum_congr rfl fun k _ => ?_
  exact congrArg₂ (· * ·) (congrFun (shapeCast_self a shapeCasts_S512x256_S512x256) (ix2 (j 0) k)) rfl

/-- The dense stage of a block of 512 rows, before the softmax: both products, their sum, the bias. -/
abbrev stage (x0 x1 : Vec Ideal S512x256 .f32) (x2 x3 : Vec Ideal S256x41 .f32) (x4 : Vec Ideal S41 .f32) : FVec Ideal S512x41 .f32 :=
  addf (addf
      (matmul dot_S512x256_S256x41_S512x41_1_0_0_1_n_n none
        (truncf .bf16 (shapeCast S512x256 x0 shapeCasts_S512x256_S512x256) bitsLt_bf16_f32)
        (truncf .bf16 x2 bitsLt_bf16_f32) (constant (F := Ideal) S512x41 .f32 0x00000000#32))
      (matmul dot_S512x256_S256x41_S512x41_1_0_0_1_n_n none
        (truncf .bf16 (shapeCast S512x256 x1 shapeCasts_S512x256_S512x256) bitsLt_bf16_f32)
        (truncf .bf16 x3 bitsLt_bf16_f32) (constant (F := Ideal) S512x41 .f32 0x00000000#32)))
    (broadcastTo S512x41 (shapeCast S1x41 x4 shapeCasts_S41_S1x41) broadcasts_S1x41_S512x41)

theorem stage_at (x0 x1 : Vec Ideal S512x256 .f32) (x2 x3 : Vec Ideal S256x41 .f32) (x4 : Vec Ideal S41 .f32) (j : S512x41.Idx) :
    stage x0 x1 x2 x3 x4 j = Cert.Sage.lin x0 x1 x2 x3 x4 (j 0) (j 1) := by
  refine (addf_apply _ _ j).trans ?_
  refine congrArg₂ (· + ·) ?_ (bias_at x4 j)
  refine (addf_apply _ _ j).trans ?_
  exact congrArg₂ (· + ·) (prod_at x0 x2 j) (prod_at x1 x3 j)

/-- The index a row reduction visits: row r, column q. -/
theorem lift_row (r : Fin 512) (q : Fin 41) : reduces_S512x41_S512.lift (ix1 r) q = ix2 r q :=
  funext fun a => Fin.ext (by
    match a with
    | ⟨0, _⟩ => rfl
    | ⟨1, _⟩ => rfl)

/-- The row maximum of a block at row r: the fold of max from −∞ along that row. -/
theorem rowmax_at (o : FVec Ideal S512x41 .f32) (r : Fin 512) :
    multiReduction .maximumf [1] S512 o 0xFF800000#32 reduces_S512x41_S512 (.inl rfl) rfl (ix1 r)
      = Cert.Sage.rowMax (fun q : Fin 41 => o (ix2 r q)) := by
  refine (Ideal.multiReduction_maximumf_single o 0xFF800000#32 reduces_S512x41_S512 (.inl rfl) rfl (ix1 r)).trans ?_
  show (Finset.univ : Finset (Fin 41)).fold max Cert.Sage.negInfW (o ∘ reduces_S512x41_S512.lift (ix1 r)) = _
  exact congrArg (fun f => (Finset.univ : Finset (Fin 41)).fold max Cert.Sage.negInfW f) (funext fun q => congrArg o (lift_row r q))

/-- The row sum of a block at row r. -/
theorem rowsum_at (e : FVec Ideal S512x41 .f32) (r : Fin 512) :
    multiReduction .add [1] S512 e 0x00000000#32 reduces_S512x41_S512 (.inl rfl) rfl (ix1 r)
      = ∑ k : Fin 41, e (ix2 r k) := by
  refine (Ideal.multiReduction_add_single e 0x00000000#32 reduces_S512x41_S512 (.inl rfl) rfl (ix1 r)).trans ?_
  exact Finset.sum_congr rfl fun k _ => congrArg e (lift_row r k)

/-- A vector of row values kept as a column: its entry at (r, 0) is the value of row r. -/
theorem column_at (v : FVec Ideal S512 .f32) (r : Fin 512) :
    shapeCast S512x1 v shapeCasts_S512_S512x1 (ix2 r (0 : Fin 1)) = v (ix1 r) := by
  refine shapeCast_apply v shapeCasts_S512_S512x1 (ix2 r (0 : Fin 1)) (ix1 r) ?_
  rw [Shape.rowMajor_val_one, Shape.rowMajor_val_two]
  show r.val = r.val * 1 + 0
  omega

/-- A column repeated across the 41 columns: the entry at (r, q) is the column's entry at (r, 0). -/
theorem across_at (x : FVec Ideal S512x1 .f32) (j : S512x41.Idx) :
    broadcastTo S512x41 x broadcasts_S512x1_S512x41 j = x (ix2 (j 0) (0 : Fin 1)) := by
  refine broadcastTo_apply x broadcasts_S512x1_S512x41 j (ix2 (j 0) (0 : Fin 1)) fun a => ?_
  match a with
  | ⟨0, _⟩ => rfl
  | ⟨1, _⟩ => rfl

/-- The row maxima of a block, kept as a column and repeated across the columns. -/
abbrev maxCols (o : FVec Ideal S512x41 .f32) : FVec Ideal S512x41 .f32 :=
  broadcastTo S512x41 (shapeCast S512x1
    (multiReduction .maximumf [1] S512 o 0xFF800000#32 reduces_S512x41_S512 (.inl rfl) rfl) shapeCasts_S512_S512x1) broadcasts_S512x1_S512x41

theorem maxCols_at (o : FVec Ideal S512x41 .f32) (j : S512x41.Idx) :
    maxCols o j = Cert.Sage.rowMax (fun q : Fin 41 => o (ix2 (j 0) q)) :=
  (across_at _ j).trans ((column_at _ (j 0)).trans (rowmax_at o (j 0)))

/-- The logarithm of the row sums of a block, kept as a column and repeated across the columns. -/
abbrev logSumCols (e : FVec Ideal S512x41 .f32) : FVec Ideal S512x41 .f32 :=
  broadcastTo S512x41 (log (shapeCast S512x1
    (multiReduction .add [1] S512 e 0x00000000#32 reduces_S512x41_S512 (.inl rfl) rfl) shapeCasts_S512_S512x1)) broadcasts_S512x1_S512x41

theorem logSumCols_at (e : FVec Ideal S512x41 .f32) (j : S512x41.Idx) :
    logSumCols e j = Ideal.log (∑ k : Fin 41, e (ix2 (j 0) k)) := by
  refine (across_at _ j).trans ?_
  exact congrArg Ideal.log ((column_at _ (j 0)).trans (rowsum_at e (j 0)))

/-- The body's tail on any block o: subtract each row's maximum, then the logarithm of the row's sum of
    exponentials — the logarithm of the softmax along the row. -/
theorem softmax_at (o : FVec Ideal S512x41 .f32) (j : S512x41.Idx) :
    subf (subf o (maxCols o)) (logSumCols (exp (subf o (maxCols o)))) j
      = Cert.Sage.logSoftmax (fun q : Fin 41 => o (ix2 (j 0) q)) (j 1) := by
  refine (subf_apply _ _ j).trans ?_
  unfold Cert.Sage.logSoftmax
  refine congrArg₂ (· - ·) ?_ ?_
  · refine (subf_apply _ _ j).trans ?_
    exact congrArg₂ (· - ·) (congrArg o (eq_ix2 j)) (maxCols_at o j)
  · refine (logSumCols_at _ j).trans ?_
    refine congrArg Ideal.log (Finset.sum_congr rfl fun k _ => ?_)
    show Ideal.exp (subf o (maxCols o) (ix2 (j 0) k)) = _
    exact congrArg Ideal.exp ((subf_apply _ _ _).trans (congrArg₂ (· - ·) rfl (maxCols_at o (ix2 (j 0) k))))

/-- The body's arithmetic is the second hop of the loaded blocks: the dense stage, then the logarithm of the softmax along each row. -/
theorem pay_eq (x0 x1 : Vec Ideal S512x256 .f32) (x2 x3 : Vec Ideal S256x41 .f32) (x4 : Vec Ideal S41 .f32) :
    Gen.k1_pay1 (F := Ideal) x0 x1 x2 x3 x4 = Cert.Sage.hop2 x0 x1 x2 x3 x4 := by
  funext j
  unfold Gen.k1_pay1
  refine (softmax_at (stage x0 x1 x2 x3 x4) j).trans ?_
  exact congrArg (fun o => Cert.Sage.logSoftmax o (j 1)) (funext fun q => stage_at x0 x1 x2 x3 x4 (ix2 (j 0) q))

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Where each window's block sits at grid point t: the two row-blocked inputs and the output at row block t
    (one block spans all columns), the two weight matrices and the bias whole. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- The second hop on a block of 512 rows, at row (y 0), is the second hop on the whole arrays at row (i 0), when
    that row of the two blocked inputs is that row of the whole inputs and the weights and bias are the whole ones. -/
theorem rows_of_block (A X : S1024x256.Idx → EReal) (Wl Wr : S256x41.Idx → EReal) (B : S41.Idx → EReal)
    (a x : Vec Ideal S512x256 .f32) (wl wr : Vec Ideal S256x41 .f32) (b : Vec Ideal S41 .f32)
    (hwl : wl = Wl) (hwr : wr = Wr) (hb : b = B)
    (y : S512x41.Idx) (i : S1024x41.Idx) (hq : (i 1).val = (y 1).val)
    (ha : ∀ k : Fin 256, a (ix2 (y 0) k) = A (ix2 (i 0) k))
    (hx : ∀ k : Fin 256, x (ix2 (y 0) k) = X (ix2 (i 0) k)) :
    Cert.Sage.hop2 a x wl wr b y = Cert.Sage.hop2 (M := 1024) (K := 256) (N := 41) A X Wl Wr B i := by
  subst hwl hwr hb
  have e : (i 1 : Fin 41) = y 1 := Fin.ext hq
  rw [eq_ix2 y, eq_ix2 i, e]
  exact Cert.Sage.hop2_rows A X a x wl wr b (i 0) (y 0) ha hx (y 1)

/-- The aggregated-neighbour window's block at point t is rows 512·t … 512·t + 511 of its array. -/
theorem agg_block_apply (c : Dev nD) (t : Fin cfg1.N) (z : S512x256.Idx) (i : S1024x256.Idx)
    (h0 : (i 0).val = t.val * 512 + (z 0).val) (h1 : (i 1).val = (z 1).val) :
    (Gen.iblk1 (F := Ideal) V c 0 t : Vec Ideal S512x256 .f32) z = (V c main_v39 : S1024x256.Idx → EReal) i := by
  obtain ⟨e0, e1, -⟩ := block_index t
  unfold Gen.iblk1
  rw [View.read_apply]
  show V c main_v39 _ = V c main_v39 _
  congr 1
  funext a
  apply Fin.ext
  match a with
  | ⟨0, _⟩ => show win1_0.index t (0 : Fin 2) * 512 + 1 * (z 0).val = (i 0).val; rw [e0, h0]; omega
  | ⟨1, _⟩ => show win1_0.index t (1 : Fin 2) * 256 + 1 * (z 1).val = (i 1).val; rw [e1, h1]; omega

/-- The own-features window's block at point t is the same rows of its array. -/
theorem own_block_apply (c : Dev nD) (t : Fin cfg1.N) (z : S512x256.Idx) (i : S1024x256.Idx)
    (h0 : (i 0).val = t.val * 512 + (z 0).val) (h1 : (i 1).val = (z 1).val) :
    (Gen.iblk1 (F := Ideal) V c 1 t : Vec Ideal S512x256 .f32) z = (V c main_v40 : S1024x256.Idx → EReal) i := by
  obtain ⟨-, -, e0, e1, -⟩ := block_index t
  unfold Gen.iblk1
  rw [View.read_apply]
  show V c main_v40 _ = V c main_v40 _
  congr 1
  funext a
  apply Fin.ext
  match a with
  | ⟨0, _⟩ => show win1_1.index t (0 : Fin 2) * 512 + 1 * (z 0).val = (i 0).val; rw [e0, h0]; omega
  | ⟨1, _⟩ => show win1_1.index t (1 : Fin 2) * 256 + 1 * (z 1).val = (i 1).val; rw [e1, h1]; omega

/-- The weight and bias windows hold their whole arrays at every point. -/
theorem wl_block (c : Dev nD) (t : Fin cfg1.N) :
    (Gen.iblk1 (F := Ideal) V c 2 t : Vec Ideal S256x41 .f32) = (V c main_arg8 : S256x41.Idx → EReal) := by
  obtain ⟨-, -, -, -, -, -, e0, e1, -⟩ := block_index t
  funext z
  unfold Gen.iblk1
  rw [View.read_apply]
  show V c main_arg8 _ = V c main_arg8 _
  congr 1
  funext a
  apply Fin.ext
  match a with
  | ⟨0, _⟩ => show win1_2.index t (0 : Fin 2) * 256 + 1 * (z 0).val = (z 0).val; rw [e0]; omega
  | ⟨1, _⟩ => show win1_2.index t (1 : Fin 2) * 41 + 1 * (z 1).val = (z 1).val; rw [e1]; omega

theorem wr_block (c : Dev nD) (t : Fin cfg1.N) :
    (Gen.iblk1 (F := Ideal) V c 3 t : Vec Ideal S256x41 .f32) = (V c main_arg9 : S256x41.Idx → EReal) := by
  obtain ⟨-, -, -, -, -, -, -, -, e0, e1, -⟩ := block_index t
  funext z
  unfold Gen.iblk1
  rw [View.read_apply]
  show V c main_arg9 _ = V c main_arg9 _
  congr 1
  funext a
  apply Fin.ext
  match a with
  | ⟨0, _⟩ => show win1_3.index t (0 : Fin 2) * 256 + 1 * (z 0).val = (z 0).val; rw [e0]; omega
  | ⟨1, _⟩ => show win1_3.index t (1 : Fin 2) * 41 + 1 * (z 1).val = (z 1).val; rw [e1]; omega

theorem bias_block (c : Dev nD) (t : Fin cfg1.N) :
    (Gen.iblk1 (F := Ideal) V c 4 t : Vec Ideal S41 .f32) = (V c main_arg10 : S41.Idx → EReal) := by
  obtain ⟨-, -, -, -, -, -, -, -, -, -, e0⟩ := block_index t
  funext z
  unfold Gen.iblk1
  rw [View.read_apply]
  show V c main_arg10 _ = V c main_arg10 _
  congr 1
  funext a
  apply Fin.ext
  match a with
  | ⟨0, _⟩ => show win1_4.index t (0 : Fin 1) * 41 + 1 * (z 0).val = (z 0).val; rw [e0]; omega

/-- What grid point t writes back is rows 512·t … 512·t + 511 of the second hop of the whole arrays. -/
theorem flushed_eq (c : Dev nD) (t : Fin cfg1.N) :
    (Gen.dat1 (F := Ideal) V c).flushed 5 t = ((cfg1.win 5).blk t).view.read (Elt Ideal)
      (Cert.Sage.hop2 (M := 1024) (K := 256) (N := 41) (V c main_v39) (V c main_v40) (V c main_arg8) (V c main_arg9) (V c main_arg10)) := by
  show (cfg1.win 5).cut (grid1.coords t) ((Gen.dat1 (F := Ideal) V c).after 5 t) = _
  rw [Gen.after1_5]
  unfold Gen.out1_5
  rw [View.canon_unit_zero hz]
  simp only [View.ld_unit_zero (S := S512x256) hz, View.ld_unit_zero (S := S256x41) hz, View.ld_unit_zero (S := S41) hz1]
  rw [pay_eq]
  obtain ⟨-, -, -, -, e0, e1, -⟩ := block_index t
  funext y
  show Cert.Sage.hop2 (Gen.iblk1 (F := Ideal) V c 0 t) (Gen.iblk1 (F := Ideal) V c 1 t) (Gen.iblk1 (F := Ideal) V c 2 t)
      (Gen.iblk1 (F := Ideal) V c 3 t) (Gen.iblk1 (F := Ideal) V c 4 t) y
    = Cert.Sage.hop2 (M := 1024) (K := 256) (N := 41) (V c main_v39) (V c main_v40) (V c main_arg8) (V c main_arg9) (V c main_arg10)
      (((cfg1.win 5).blk t).view.emb y)
  have r0 : ((((cfg1.win 5).blk t).view.emb y) 0).val = t.val * 512 + (y 0).val := by
    show win1_5.index t (0 : Fin 2) * 512 + 1 * (y 0).val = _
    rw [e0]; omega
  have r1 : ((((cfg1.win 5).blk t).view.emb y) 1).val = (y 1).val := by
    show win1_5.index t (1 : Fin 2) * 41 + 1 * (y 1).val = _
    rw [e1]; omega
  exact rows_of_block (V c main_v39) (V c main_v40) (V c main_arg8) (V c main_arg9) (V c main_arg10)
    (Gen.iblk1 (F := Ideal) V c 0 t) (Gen.iblk1 (F := Ideal) V c 1 t) (Gen.iblk1 (F := Ideal) V c 2 t)
    (Gen.iblk1 (F := Ideal) V c 3 t) (Gen.iblk1 (F := Ideal) V c 4 t)
    (wl_block V c t) (wr_block V c t) (bias_block V c t) y (((cfg1.win 5).blk t).view.emb y) r1
    (fun k => agg_block_apply V c t (ix2 (y 0) k) (ix2 ((((cfg1.win 5).blk t).view.emb y) 0) k) r0 rfl)
    (fun k => own_block_apply V c t (ix2 (y 0) k) (ix2 ((((cfg1.win 5).blk t).view.emb y) 0) k) r0 rfl)

/-- An index of the output array is in point t's block iff each coordinate is in the block's range on its axis. -/
theorem mem_blk (t : Fin cfg1.N) (i : S1024x41.Idx) :
    i ∈ ((cfg1.win 5).blk t).view.set ↔ ∀ a : Fin 2, win1_5.index t a * S512x41.size a ≤ (i a).val ∧ (i a).val < win1_5.index t a * S512x41.size a + S512x41.size a := by
  show i ∈ ((View.whole main_v41).slice (win1_5.rect t)).set ↔ _
  rw [View.set_slice_whole, Rect.mem_set_unit]
  exact Iff.rfl

/-- Every row of the output lies in some point's block: row r in the block of point r / 512. -/
theorem cover (i : S1024x41.Idx) :
    ∃ t : Fin cfg1.N, (cfg1.win 5).flush t = true ∧ i ∈ ((cfg1.win 5).blk t).view.set := by
  have hi0 : (i 0).val < 1024 := (i 0).isLt
  have hi1 : (i 1).val < 41 := (i 1).isLt
  have hN : cfg1.N = 2 := Gen.N_1
  let t : Fin cfg1.N := ⟨(i 0).val / 512, by rw [hN]; omega⟩
  have ht : t.val = (i 0).val / 512 := rfl
  obtain ⟨-, -, -, -, e0, e1, -⟩ := block_index t
  refine ⟨t, Gen.flush1_5 t, ?_⟩
  rw [mem_blk]
  intro a
  match a with
  | ⟨0, _⟩ => show win1_5.index t (0 : Fin 2) * 512 ≤ (i 0).val ∧ (i 0).val < win1_5.index t (0 : Fin 2) * 512 + 512; rw [e0, ht]; omega
  | ⟨1, _⟩ => show win1_5.index t (1 : Fin 2) * 41 ≤ (i 1).val ∧ (i 1).val < win1_5.index t (1 : Fin 2) * 41 + 41; rw [e1]; omega

/-- The second region's output array after the run is the second hop of the arrays the region found. -/
theorem final (c : Dev nD) :
    (Gen.dat1 (F := Ideal) V c).arrAt 5 cfg1.N
      = Cert.Sage.hop2 (M := 1024) (K := 256) (N := 41) (V c main_v39) (V c main_v40) (V c main_arg8) (V c main_arg9) (V c main_arg10) :=
  (Gen.dat1 (F := Ideal) V c).arrAt_eq_of_cover 5
    (Cert.Sage.hop2 (M := 1024) (K := 256) (N := 41) (V c main_v39) (V c main_v40) (V c main_arg8) (V c main_arg9) (V c main_arg10))
    (fun t _ => flushed_eq V c t) cover

end Cert.KernelIdeal.HopTwo

end
-- ==== Proof.RefHops.lean ====
/-
  The reference program's two dense stages, read as the specification's functions.

  The reference forms each hop from a neighbour mean `a` and the target nodes' own features `x` as
  (a·Wl + bias) + x·Wr — bias before the own part — and then clamps below at zero (first hop) or takes
  the logarithm of the softmax along each row (second hop).  Addition on the extended reals is commutative
  and associative, so the three-term sum is the specification's a·Wl + x·Wr + bias; nothing here needs a
  finite entry.  The two neighbour means and the two own-feature arrays stay whole arrays throughout: only
  the dense stage on top of them is read.
-/
import proofs.«135882_j69801808494648_2_alg».proof.Proof.RefRead
import proofs.«135882_j69801808494648_2_alg».proof.Proof.Spec
import proofs.«135882_j69801808494648_2_alg».proof.Proof.LibDotRows
import Idealize.ShloMosaic.Lib.ValueIdx
import Idealize.ShloMosaic.PureOps.Ideal.Laws
import Idealize.ShloMosaic.PureOps.Reduce

noncomputable section

namespace Cert.ReferenceIdeal.Hops

open Cert.ReferenceIdeal Cert.ReferenceIdeal.ReadP Idealize.ShloMosaic Idealize.ShloMosaic.ValueIdx

/-! ## The first hop -/

/-- The first dense stage of the reference before the clamp, at row `p`, column `q`: neighbours' part plus bias plus own part. -/
theorem lin1_ix2 (x0 : (⟨S120000x602, .f32⟩ : BufTy).Contents (Elt Ideal)) (x1 x2 : (⟨S250000, .i32⟩ : BufTy).Contents (Elt Ideal))
    (x5 x6 : (⟨S602x256, .f32⟩ : BufTy).Contents (Elt Ideal)) (x7 : (⟨S256, .f32⟩ : BufTy).Contents (Elt Ideal))
    (p : Fin 10000) (q : Fin 256) :
    val_main_v25 (F := Ideal) x0 x1 x2 x5 x6 x7 (ix2 p q)
      = Cert.Sage.lin (M := 10000) (K := 602) (N := 256) (val_main_v19 (F := Ideal) x0 x1 x2) (val_main_v0 (F := Ideal) x0) x5 x6 x7 p q := by
  rw [val_main_v25_apply, val_main_v23_apply, val_main_v20_apply, val_main_v24_apply, val_main_v22_apply, val_main_v21_apply,
    ← Cert.Sage.lin_bias_first]
  have el : ∀ k : Fin 602, lidx_main_v20 (ix2 p q) k = ix2 p k := fun k =>
    funext fun a => Fin.ext (by match a with | ⟨0, _⟩ => rfl | ⟨1, _⟩ => rfl)
  have er : ∀ k : Fin 602, ridx_main_v20 (ix2 p q) k = ix2 k q := fun k =>
    funext fun a => Fin.ext (by match a with | ⟨0, _⟩ => rfl | ⟨1, _⟩ => rfl)
  have el' : ∀ k : Fin 602, lidx_main_v24 (ix2 p q) k = ix2 p k := fun k =>
    funext fun a => Fin.ext (by match a with | ⟨0, _⟩ => rfl | ⟨1, _⟩ => rfl)
  have er' : ∀ k : Fin 602, ridx_main_v24 (ix2 p q) k = ix2 k q := fun k =>
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  simp only [el, er, el', er', eb, Ideal.addf_def]

/-- The reference's first hop is the specification's: the dense stage clamped below at the zero word. -/
theorem hop1_eq (x0 : (⟨S120000x602, .f32⟩ : BufTy).Contents (Elt Ideal)) (x1 x2 : (⟨S250000, .i32⟩ : BufTy).Contents (Elt Ideal))
    (x5 x6 : (⟨S602x256, .f32⟩ : BufTy).Contents (Elt Ideal)) (x7 : (⟨S256, .f32⟩ : BufTy).Contents (Elt Ideal)) :
    val_main_v26 (F := Ideal) x0 x1 x2 x5 x6 x7
      = Cert.Sage.hop1 (M := 10000) (K := 602) (N := 256) (val_main_v19 (F := Ideal) x0 x1 x2) (val_main_v0 (F := Ideal) x0) x5 x6 x7 := by
  funext i
  obtain ⟨p, q, rfl⟩ : ∃ (p : Fin 10000) (q : Fin 256), i = ix2 p q := ⟨i 0, i 1, eq_ix2 i⟩
  rw [val_main_v26_apply, lin1_ix2, val_main_call0_v0_apply, val_main_call0_cst_apply]
  rfl

/-! ## The second hop -/

/-- The second dense stage of the reference before the log-softmax, at row `p`, column `q`. -/
theorem lin2_ix2 (x0 : (⟨S120000x602, .f32⟩ : BufTy).Contents (Elt Ideal)) (x1 x2 : (⟨S250000, .i32⟩ : BufTy).Contents (Elt Ideal))
    (x3 x4 : (⟨S25600, .i32⟩ : BufTy).Contents (Elt Ideal)) (x5 x6 : (⟨S602x256, .f32⟩ : BufTy).Contents (Elt Ideal))
    (x7 : (⟨S256, .f32⟩ : BufTy).Contents (Elt Ideal)) (x8 x9 : (⟨S256x41, .f32⟩ : BufTy).Contents (Elt Ideal))
    (x10 : (⟨S41, .f32⟩ : BufTy).Contents (Elt Ideal)) (p : Fin 1024) (q : Fin 41) :
    val_main_v52 (F := Ideal) x0 x1 x2 x3 x4 x5 x6 x7 x8 x9 x10 (ix2 p q)
      = Cert.Sage.lin (M := 1024) (K := 256) (N := 41) (val_main_v46 (F := Ideal) x0 x1 x2 x3 x4 x5 x6 x7)
        (val_main_v27 (F := Ideal) x0 x1 x2 x5 x6 x7) x8 x9 x10 p q := by
  rw [val_main_v52_apply, val_main_v50_apply, val_main_v47_apply, val_main_v51_apply, val_main_v49_apply, val_main_v48_apply,
    ← Cert.Sage.lin_bias_first]
  have el : ∀ k : Fin 256, lidx_main_v47 (ix2 p q) k = ix2 p k := fun k =>
    funext fun a => Fin.ext (by match a with | ⟨0, _⟩ => rfl | ⟨1, _⟩ => rfl)
  have er : ∀ k : Fin 256, ridx_main_v47 (ix2 p q) k = ix2 k q := fun k =>
    funext fun a => Fin.ext (by match a with | ⟨0, _⟩ => rfl | ⟨1, _⟩ => rfl)
  have el' : ∀ k : Fin 256, lidx_main_v51 (ix2 p q) k = ix2 p k := fun k =>
    funext fun a => Fin.ext (by match a with | ⟨0, _⟩ => rfl | ⟨1, _⟩ => rfl)
  have er' : ∀ k : Fin 256, ridx_main_v51 (ix2 p q) k = ix2 k q := fun k =>
    funext fun a => Fin.ext (by match a with | ⟨0, _⟩ => rfl | ⟨1, _⟩ => rfl)
  have eb : idx_main_v48 (idx_main_v49 (ix2 p q)) = ix1 q :=
    funext fun a => Fin.ext (by match a with | ⟨0, _⟩ => rfl)
  simp only [el, er, el', er', eb, Ideal.addf_def]

/-- Row `p` of a 1024×41 array with column `k` put back in is the entry (p, k). -/
theorem lift_row (h : S1024x41.Reduces [1] S1024) (p : Fin 1024) (k : Fin (S1024x41.size 1)) :
    h.lift (ix1 p) k = ix2 p (⟨k.val, k.isLt⟩ : Fin 41) := by
  funext c; apply Fin.ext
  fin_cases c <;> rfl

/-- A maximum-reduce along the rows of a 1024×41 array from the −∞ word is, at row `p`, that row's maximum folded from −∞. -/
theorem reduceMax_row (y : S1024x41.Idx → EReal) (init : S_.Idx → EReal) (h' : S1024x41.ReducesTo [1] S1024) (hu : 0 < S_.numel)
    (hinit : ∀ j, init j = Cert.Sage.negInfW) (p : Fin 1024) :
    Host.reduce (FloatOps.maximumf (F := Ideal) (φ := .f32)) y init h' hu (ix1 p) = Cert.Sage.rowMax (fun k : Fin 41 => y (ix2 p k)) := by
  have h : S1024x41.Reduces [1] S1024 := by decide
  rw [Host.reduce_eq_fold_single (FloatOps.maximumf (F := Ideal) (φ := .f32)) y init h' h hu, hinit]
  have hf : (y ∘ h.lift (ix1 p)) = fun k : Fin 41 => y (ix2 p k) := funext fun k => congrArg y (lift_row h p k)
  exact congrArg (fun f => Finset.fold max Cert.Sage.negInfW f (Finset.univ : Finset (Fin 41))) hf

/-- The reference's shifted logits: entry (p, q) of the second stage minus its row's maximum. -/
theorem shifted_ix2 (x0 : (⟨S120000x602, .f32⟩ : BufTy).Contents (Elt Ideal)) (x1 x2 : (⟨S250000, .i32⟩ : BufTy).Contents (Elt Ideal))
    (x3 x4 : (⟨S25600, .i32⟩ : BufTy).Contents (Elt Ideal)) (x5 x6 : (⟨S602x256, .f32⟩ : BufTy).Contents (Elt Ideal))
    (x7 : (⟨S256, .f32⟩ : BufTy).Contents (Elt Ideal)) (x8 x9 : (⟨S256x41, .f32⟩ : BufTy).Contents (Elt Ideal))
    (x10 : (⟨S41, .f32⟩ : BufTy).Contents (Elt Ideal)) (p : Fin 1024) (q : Fin 41) :
    val_main_call1_v5 (F := Ideal) x0 x1 x2 x3 x4 x5 x6 x7 x8 x9 x10 (ix2 p q)
      = Cert.Sage.lin (M := 1024) (K := 256) (N := 41) (val_main_v46 (F := Ideal) x0 x1 x2 x3 x4 x5 x6 x7)
        (val_main_v27 (F := Ideal) x0 x1 x2 x5 x6 x7) x8 x9 x10 p q
        - Cert.Sage.rowMax (fun k : Fin 41 => Cert.Sage.lin (M := 1024) (K := 256) (N := 41) (val_main_v46 (F := Ideal) x0 x1 x2 x3 x4 x5 x6 x7)
        (val_main_v27 (F := Ideal) x0 x1 x2 x5 x6 x7) x8 x9 x10 p k) := by
  have eb : idx_main_call1_v3 (idx_main_call1_v4 (ix2 p q)) = ix1 p :=
    funext fun a => Fin.ext (by match a with | ⟨0, _⟩ => rfl)
  rw [val_main_call1_v5_apply, lin2_ix2, val_main_call1_v4_apply, val_main_call1_v3_apply, val_main_call1_v2_apply,
    val_main_call1_v1_apply, val_main_call1_cst_0_apply, eb]
  unfold val_main_call1_v0
  rw [reduceMax_row _ (val_main_call1_cst (F := Ideal)) _ _ (fun _ => rfl) p]
  simp only [lin2_ix2, Ideal.ofBits_def, Ideal.maximumf_def, Ideal.subf_def]
  rw [Cert.Sage.max_negInf_rowMax]

/-- The reference's second hop is the specification's: the dense stage, then the logarithm of the softmax along each row. -/
theorem hop2_eq (x0 : (⟨S120000x602, .f32⟩ : BufTy).Contents (Elt Ideal)) (x1 x2 : (⟨S250000, .i32⟩ : BufTy).Contents (Elt Ideal))
    (x3 x4 : (⟨S25600, .i32⟩ : BufTy).Contents (Elt Ideal)) (x5 x6 : (⟨S602x256, .f32⟩ : BufTy).Contents (Elt Ideal))
    (x7 : (⟨S256, .f32⟩ : BufTy).Contents (Elt Ideal)) (x8 x9 : (⟨S256x41, .f32⟩ : BufTy).Contents (Elt Ideal))
    (x10 : (⟨S41, .f32⟩ : BufTy).Contents (Elt Ideal)) :
    val_main_v53 (F := Ideal) x0 x1 x2 x3 x4 x5 x6 x7 x8 x9 x10
      = Cert.Sage.hop2 (M := 1024) (K := 256) (N := 41) (val_main_v46 (F := Ideal) x0 x1 x2 x3 x4 x5 x6 x7)
          (val_main_v27 (F := Ideal) x0 x1 x2 x5 x6 x7) x8 x9 x10 := by
  funext i
  obtain ⟨p, q, rfl⟩ : ∃ (p : Fin 1024) (q : Fin 41), i = ix2 p q := ⟨i 0, i 1, eq_ix2 i⟩
  have eb : idx_main_call1_v8 (idx_main_call1_v10 (ix2 p q)) = ix1 p :=
    funext fun a => Fin.ext (by match a with | ⟨0, _⟩ => rfl)
  have ek : ∀ k : Fin 41, idx_main_call1_v7 (ix1 p) k = ix2 p k := fun k =>
    funext fun a => Fin.ext (by match a with | ⟨0, _⟩ => rfl | ⟨1, _⟩ => rfl)
  rw [val_main_v53_apply, shifted_ix2, val_main_call1_v10_apply, val_main_call1_v9_apply, val_main_call1_v8_apply, eb,
    val_main_call1_v7_apply, val_main_call1_cst_1_apply]
  simp only [ek, val_main_call1_v6_apply, shifted_ix2, Ideal.ofBits_def, Ideal.ofBits_zero_f32, zero_add, Ideal.subf_def,
    Ideal.hostUnary_exp_def, Ideal.hostUnary_log_def]
  rfl

end Cert.ReferenceIdeal.Hops

end
-- ==== Proof.Bridge.lean ====
/-
  The two programs compute one function.

  Write A = mean of neighbours, R = first rows.  The idealized kernel's result buffer holds, at the end of its run,

      hop2 (mean2 h src2 dst2) (rows2 h) Wl2 Wr2 bl2      with   h = hop1 (A x src1 dst1) (R x) Wl1 Wr1 bl1,

  read off the fold of buffer contents through @main's four segments: the last region leaves its output array at
  `hop2` of its entry arrays, those are the host operations' functions of the first region's output array, and that
  array is `hop1` of the first region's entry arrays, which are the host operations' functions of the arguments.
  The reference's result is the same expression: its two dense stages are `hop1` and `hop2` of the same inputs (the
  bias is added in another position of the three-term sum, and the row maximum is folded against −∞ once more), and
  its gathers and scatters are literally the kernel's.
-/
import proofs.«135882_j69801808494648_2_alg».proof.Proof.KernelRun
import proofs.«135882_j69801808494648_2_alg».proof.Proof.HostReads
import proofs.«135882_j69801808494648_2_alg».proof.Proof.HopOneArray
import proofs.«135882_j69801808494648_2_alg».proof.Proof.HopTwoArray
import proofs.«135882_j69801808494648_2_alg».proof.Proof.RefHops

set_option maxRecDepth 16384

noncomputable section

namespace Cert.Bridge

open Idealize.ShloMosaic Idealize.ShloMosaic.TcCoe Idealize.SL.Sem

/-- The common result, as a function of the eleven argument arrays. -/
def value (x0 : FVec Ideal ⟨2, ![120000, 602]⟩ .f32) (x1 x2 : IVec ⟨1, ![250000]⟩ 32) (x3 x4 : IVec ⟨1, ![25600]⟩ 32)
    (x5 x6 : FVec Ideal ⟨2, ![602, 256]⟩ .f32) (x7 : FVec Ideal ⟨1, ![256]⟩ .f32) (x8 x9 : FVec Ideal ⟨2, ![256, 41]⟩ .f32)
    (x10 : FVec Ideal ⟨1, ![41]⟩ .f32) : FVec Ideal ⟨2, ![1024, 41]⟩ .f32 :=
  Cert.Sage.hop2 (M := 1024) (K := 256) (N := 41)
    (mean2 (Cert.Sage.hop1 (M := 10000) (K := 602) (N := 256) (Cert.ReferenceIdeal.ReadP.val_main_v19 (F := Ideal) x0 x1 x2)
      (Cert.ReferenceIdeal.ReadP.val_main_v0 (F := Ideal) x0) x5 x6 x7) x3 x4)
    (rows2 (Cert.Sage.hop1 (M := 10000) (K := 602) (N := 256) (Cert.ReferenceIdeal.ReadP.val_main_v19 (F := Ideal) x0 x1 x2)
      (Cert.ReferenceIdeal.ReadP.val_main_v0 (F := Ideal) x0) x5 x6 x7))
    x8 x9 x10

/-! ## The reference -/

section Reference
open Cert.ReferenceIdeal Cert.ReferenceIdeal.ReadP

/-- The reference's result stage is `value` of the arguments. -/
theorem ref_value (x0 : (⟨S120000x602, .f32⟩ : BufTy).Contents (Elt Ideal)) (x1 x2 : (⟨S250000, .i32⟩ : BufTy).Contents (Elt Ideal))
    (x3 x4 : (⟨S25600, .i32⟩ : BufTy).Contents (Elt Ideal)) (x5 x6 : (⟨S602x256, .f32⟩ : BufTy).Contents (Elt Ideal))
    (x7 : (⟨S256, .f32⟩ : BufTy).Contents (Elt Ideal)) (x8 x9 : (⟨S256x41, .f32⟩ : BufTy).Contents (Elt Ideal))
    (x10 : (⟨S41, .f32⟩ : BufTy).Contents (Elt Ideal)) :
    val_main_v53 (F := Ideal) x0 x1 x2 x3 x4 x5 x6 x7 x8 x9 x10 = value x0 x1 x2 x3 x4 x5 x6 x7 x8 x9 x10 := by
  rw [Cert.ReferenceIdeal.Hops.hop2_eq, ref_mean2, ref_rows2, Cert.ReferenceIdeal.Hops.hop1_eq]
  rfl

end Reference

/-! ## The kernel -/

section Kernel
open Cert.KernelIdeal Cert.KernelIdeal.Gen

variable (m : (ℓ : Loc nD τ sig) → Buf (Elt Ideal) ℓ) (ρ : Dev nD → PrngReg)

/-- The first region's output array when the region is left: the first hop of the arguments. -/
theorem kernel_first (c : Dev nD) : W2 (F := Ideal) m ρ c (Proc.devRef .tc main_v20)
    = Cert.Sage.hop1 (M := 10000) (K := 602) (N := 256)
        (Cert.ReferenceIdeal.ReadP.val_main_v19 (F := Ideal) (m ((c.tc : Thread nD τ).loc main_arg0)) (m ((c.tc : Thread nD τ).loc main_arg1)) (m ((c.tc : Thread nD τ).loc main_arg2)))
        (Cert.ReferenceIdeal.ReadP.val_main_v0 (F := Ideal) (m ((c.tc : Thread nD τ).loc main_arg0))) (m ((c.tc : Thread nD τ).loc main_arg5)) (m ((c.tc : Thread nD τ).loc main_arg6)) (m ((c.tc : Thread nD τ).loc main_arg7)) := by
  refine (W2_arr m ρ c 5).trans ?_
  rw [Cert.KernelIdeal.HopOne.final (V1 m ρ) c]
  have e0 : V1 m ρ c main_v18 = _ := entry0_mean m ρ c
  have e1 : V1 m ρ c main_v19 = _ := entry0_rows m ρ c
  have e2 : V1 m ρ c main_arg5 = _ := entry0_arg5 m ρ c
  have e3 : V1 m ρ c main_arg6 = _ := entry0_arg6 m ρ c
  have e4 : V1 m ρ c main_arg7 = _ := entry0_arg7 m ρ c
  rw [e0, e1, e2, e3, e4]

/-- The result buffer at the last boundary: `value` of the arguments. -/
theorem kernel_value (c : Dev nD) : W4 (F := Ideal) m ρ c (Proc.devRef .tc main_v41)
    = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 5).trans ?_
  rw [Cert.KernelIdeal.HopTwo.final (V3 m ρ) c]
  have e0 : V3 m ρ c main_v39 = _ := entry1_mean m ρ c
  have e1 : V3 m ρ c main_v40 = _ := entry1_rows m ρ c
  have e2 : V3 m ρ c main_arg8 = _ := entry1_arg8 m ρ c
  have e3 : V3 m ρ c main_arg9 = _ := entry1_arg9 m ρ c
  have e4 : V3 m ρ c main_arg10 = _ := entry1_arg10 m ρ c
  rw [e0, e1, e2, e3, e4, kernel_first m ρ c]
  rfl

end Kernel

end Cert.Bridge

end
-- ==== Proof.lean ====
/-
  `Cert.Claim` for a two-hop mean-aggregating graph convolution with a log-softmax head.

  Each hop forms, for every target node, the mean of its neighbours' feature rows (gather, scatter-add, divide by
  the clamped in-degree: host operations in both programs) and applies a dense stage
      agg · Wl + x_target · Wr + b ,
  clamped at zero after the first hop, followed by a row-wise logarithm of the softmax after the second.  The
  kernel computes the two dense stages in two pallas_calls over blocks of rows; the reference computes them as
  whole-array host operations.  On the extended reals both results are one function of the arguments
  (`Cert.Bridge.value`): a block of rows of a dense stage depends only on those rows of its two row-blocked inputs,
  a matrix product into a zero accumulator and a host contraction are the same row-by-column sums, the three-term
  sum is merely regrouped (addition is commutative and associative, also at the infinities — no entry needs to be
  finite, and the precondition is never used), and folding a row's maximum against −∞ once more changes nothing.

  The three frames: the two kernels' are the generated frame certificates; the reference's is its run with the
  result dropped.  The idealization rewrote nothing, so `preserves` is trivial.  `algebraic`: the kernel's run
  with its final memory named (Proof/KernelRun.lean) read at the result buffer (Proof/Bridge.lean), against the
  reference's run (Proof/RefRun.lean, Proof/RefRead.lean) read as the same function.
-/
import proofs.«135882_j69801808494648_2_alg».proof.Defs
import proofs.«135882_j69801808494648_2_alg».proof.Proof.Gen.Kernel
import proofs.«135882_j69801808494648_2_alg».proof.Proof.Gen.Kernel.Skeleton
import proofs.«135882_j69801808494648_2_alg».proof.Proof.Gen.Kernel.Launch
import proofs.«135882_j69801808494648_2_alg».proof.Proof.Gen.Kernel.Points
import proofs.«135882_j69801808494648_2_alg».proof.Proof.Gen.Kernel.Frame
import proofs.«135882_j69801808494648_2_alg».proof.Proof.Gen.KernelIdeal
import proofs.«135882_j69801808494648_2_alg».proof.Proof.Gen.KernelIdeal.Skeleton
import proofs.«135882_j69801808494648_2_alg».proof.Proof.Gen.KernelIdeal.Launch
import proofs.«135882_j69801808494648_2_alg».proof.Proof.Gen.KernelIdeal.Points
import proofs.«135882_j69801808494648_2_alg».proof.Proof.Gen.KernelIdeal.Frame
import proofs.«135882_j69801808494648_2_alg».proof.Proof.Gen.ReferenceIdeal
import proofs.«135882_j69801808494648_2_alg».proof.Proof.Gen.Pre_finite_inputs
import proofs.«135882_j69801808494648_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame: its run, with what it says about the result dropped. -/
theorem frame_referenceIdeal : Cert.frame_ReferenceIdeal :=
  fun m ρ _ => (θ_run Cert.ReferenceIdeal.defs _ _).mono (fun _ h c => (h c).2) (Cert.ReferenceIdeal.ValueP.run (F := Ideal) m ρ)

/-- Both idealized programs end with the result buffer at `Cert.Bridge.value` of the arguments. -/
theorem algebraic : Cert.algebraic_KernelIdeal_ReferenceIdeal := by
  intro m ρ m' ρ' _ hagree
  refine ⟨fun c => Cert.Bridge.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Run.run_all (F := Ideal) m ρ)
    exact ⟨(h c _ Cert.KernelIdeal.Run.mem_result).trans (Cert.Bridge.kernel_value m ρ c),
      (h c _ (Cert.KernelIdeal.Gen.mem_uc Cert.KernelIdeal.main_arg0 (by decide))).trans (Cert.KernelIdeal.Gen.W4_main_arg0 m ρ c),
      (h c _ (Cert.KernelIdeal.Gen.mem_uc Cert.KernelIdeal.main_arg1 (by decide))).trans (Cert.KernelIdeal.Gen.W4_main_arg1 m ρ c),
      (h c _ (Cert.KernelIdeal.Gen.mem_uc Cert.KernelIdeal.main_arg2 (by decide))).trans (Cert.KernelIdeal.Gen.W4_main_arg2 m ρ c),
      (h c _ (Cert.KernelIdeal.Gen.mem_uc Cert.KernelIdeal.main_arg3 (by decide))).trans (Cert.KernelIdeal.Gen.W4_main_arg3 m ρ c),
      (h c _ (Cert.KernelIdeal.Gen.mem_uc Cert.KernelIdeal.main_arg4 (by decide))).trans (Cert.KernelIdeal.Gen.W4_main_arg4 m ρ c),
      (h c _ (Cert.KernelIdeal.Gen.mem_uc Cert.KernelIdeal.main_arg5 (by decide))).trans (Cert.KernelIdeal.Gen.W4_main_arg5 m ρ c),
      (h c _ (Cert.KernelIdeal.Gen.mem_uc Cert.KernelIdeal.main_arg6 (by decide))).trans (Cert.KernelIdeal.Gen.W4_main_arg6 m ρ c),
      (h c _ (Cert.KernelIdeal.Gen.mem_uc Cert.KernelIdeal.main_arg7 (by decide))).trans (Cert.KernelIdeal.Gen.W4_main_arg7 m ρ c),
      (h c _ (Cert.KernelIdeal.Gen.mem_uc Cert.KernelIdeal.main_arg8 (by decide))).trans (Cert.KernelIdeal.Gen.W4_main_arg8 m ρ c),
      (h c _ (Cert.KernelIdeal.Gen.mem_uc Cert.KernelIdeal.main_arg9 (by decide))).trans (Cert.KernelIdeal.Gen.W4_main_arg9 m ρ c),
      (h c _ (Cert.KernelIdeal.Gen.mem_uc Cert.KernelIdeal.main_arg10 (by decide))).trans (Cert.KernelIdeal.Gen.W4_main_arg10 m ρ c)⟩
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v53_eq, Cert.Bridge.ref_value,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
